-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S256x40 .f32) (main_v50 : FVec F S256x40 .f32) : IVec S_ 1 :=
  let main_v51 : IVec S256x40 1 := cmpf .olt main_v49 main_v50
  let main_c_19 : IVec S_ 1 := constantI S_ 1 1#1
  let main_v52 : IVec S_ 1 := (fun x v => Host.reduce IntOp.andi x v reducesTo_S256x40_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S128 .f32) (main_arg9 : FVec F S128x256 .f32) (main_arg10 : FVec F S256 .f32) (main_arg11 : FVec F S256x40 .f32) (main_arg12 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x40 .f32 := Host.absf main_arg11
  let main_cst_18 : FVec F S_ .f32 := constant S_ .f32 0x7F800000#32
  let main_v50 : FVec F S256x40 .f32 := broadcastInDim S256x40 ![] bcast_S_S256x40 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S256x40 .f32) (main_arg12 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x256 .f32) (main_arg10 : FVec F S256 .f32) (main_arg11 : FVec F S256x40 .f32) (main_arg12 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S100000 : Shape := ⟨1, ![100000]⟩
abbrev S1x800000 : Shape := ⟨2, ![1, 800000]⟩
abbrev S900000 : Shape := ⟨1, ![900000]⟩
abbrev S_ : Shape := ⟨0, ![]⟩
abbrev S900000x1 : Shape := ⟨2, ![900000, 1]⟩
abbrev S1x128 : Shape := ⟨2, ![1, 128]⟩
abbrev S5000x128 : Shape := ⟨2, ![5000, 128]⟩
abbrev S900000x128 : Shape := ⟨2, ![900000, 128]⟩
abbrev S1x256 : Shape := ⟨2, ![1, 256]⟩
abbrev S100000x256 : Shape := ⟨2, ![100000, 256]⟩
abbrev S5000x256 : Shape := ⟨2, ![5000, 256]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 124
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S256, .f32⟩
  | .hbm, ⟨11, _⟩ => ⟨S256x40, .f32⟩
  | .hbm, ⟨12, _⟩ => ⟨S40, .f32⟩
  | .hbm, ⟨13, _⟩ => ⟨S100000, .i32⟩
  | .hbm, ⟨14, _⟩ => ⟨S1x800000, .i32⟩
  | .hbm, ⟨15, _⟩ => ⟨S800000, .i32⟩
  | .hbm, ⟨16, _⟩ => ⟨S900000, .i32⟩
  | .hbm, ⟨17, _⟩ => ⟨S1x800000, .i32⟩
  | .hbm, ⟨18, _⟩ => ⟨S800000, .i32⟩
  | .hbm, ⟨19, _⟩ => ⟨S900000, .i32⟩
  | .hbm, ⟨20, _⟩ => ⟨S_, .f32⟩
  | .hbm, ⟨21, _⟩ => ⟨S100000, .f32⟩
  | .hbm, ⟨22, _⟩ => ⟨S900000, .f32⟩
  | .hbm, ⟨23, _⟩ => ⟨S_, .f32⟩
  | .hbm, ⟨24, _⟩ => ⟨S100000, .f32⟩
  | .hbm, ⟨25, _⟩ => ⟨S900000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S900000, .i32⟩
  | .hbm, ⟨37, _⟩ => ⟨S900000, .i1⟩
  | .hbm, ⟨38, _⟩ => ⟨S_, .i32⟩
  | .hbm, ⟨39, _⟩ => ⟨S900000, .i32⟩
  | .hbm, ⟨40, _⟩ => ⟨S900000, .i32⟩
  | .hbm, ⟨41, _⟩ => ⟨S900000, .i32⟩
  | .hbm, ⟨42, _⟩ => ⟨S900000x1, .i32⟩
  | .hbm, ⟨43, _⟩ => ⟨S900000, .f32⟩
  | .hbm, ⟨44, _⟩ => ⟨S900000, .f32⟩
  | .hbm, ⟨45, _⟩ => ⟨S_, .i32⟩
  | .hbm, ⟨46, _⟩ => ⟨S900000, .i32⟩
  | .hbm, ⟨47, _⟩ => ⟨S900000, .i1⟩
  | .hbm, ⟨48, _⟩ => ⟨S_, .i32⟩
  | .hbm, ⟨49, _⟩ => ⟨S900000, .i32⟩
  | .hbm, ⟨50, _⟩ => ⟨S900000, .i32⟩
  | .hbm, ⟨51, _⟩ => ⟨S900000, .i32⟩
  | .hbm, ⟨52, _⟩ => ⟨S900000x1, .i32⟩
  | .hbm, ⟨53, _⟩ => ⟨S900000, .f32⟩
  | .hbm, ⟨54, _⟩ => ⟨S900000, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S256, .f32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S1x128, .f32⟩
  | .hbm, ⟨63, _⟩ => ⟨S100000x128, .f32⟩
  | .hbm, ⟨64, _⟩ => ⟨S_, .i32⟩
  | .hbm, ⟨65, _⟩ => ⟨S900000, .i32⟩
  | .hbm, ⟨66, _⟩ => ⟨S900000, .i1⟩
  | .hbm, ⟨67, _⟩ => ⟨S_, .i32⟩
  | .hbm, ⟨68, _⟩ => ⟨S900000, .i32⟩
  | .hbm, ⟨69, _⟩ => ⟨S900000, .i32⟩
  | .hbm, ⟨70, _⟩ => ⟨S900000, .i32⟩
  | .hbm, ⟨71, _⟩ => ⟨S900000x1, .i32⟩
  | .hbm, ⟨72, _⟩ => ⟨S900000x128, .f32⟩
  | .hbm, ⟨73, _⟩ => ⟨S900000x1, .f32⟩
  | .hbm, ⟨74, _⟩ => ⟨S900000x128, .f32⟩
  | .hbm, ⟨75, _⟩ => ⟨S900000x128, .f32⟩
  | .hbm, ⟨76, _⟩ => ⟨S_, .f32⟩
  | .hbm, ⟨77, _⟩ => ⟨S100000x128, .f32⟩
  | .hbm, ⟨78, _⟩ => ⟨S900000x1, .i32⟩
  | .hbm, ⟨79, _⟩ => ⟨S100000x128, .f32⟩
  | .hbm, ⟨80, _⟩ => ⟨S1x128, .f32⟩
  | .hbm, ⟨81, _⟩ => ⟨S1x128, .f32⟩
  | .hbm, ⟨82, _⟩ => ⟨S100000x128, .f32⟩
  | .hbm, ⟨83, _⟩ => ⟨S_, .i32⟩
  | .hbm, ⟨84, _⟩ => ⟨S900000, .i32⟩
  | .hbm, ⟨85, _⟩ => ⟨S900000, .i1⟩
  | .hbm, ⟨86, _⟩ => ⟨S_, .i32⟩
  | .hbm, ⟨87, _⟩ => ⟨S900000, .i32⟩
  | .hbm, ⟨88, _⟩ => ⟨S900000, .i32⟩
  | .hbm, ⟨89, _⟩ => ⟨S900000, .i32⟩
  | .hbm, ⟨90, _⟩ => ⟨S900000x1, .i32⟩
  | .hbm, ⟨91, _⟩ => ⟨S900000x128, .f32⟩
  | .hbm, ⟨92, _⟩ => ⟨S900000x1, .f32⟩
  | .hbm, ⟨93, _⟩ => ⟨S900000x128, .f32⟩
  | .hbm, ⟨94, _⟩ => ⟨S900000x128, .f32⟩
  | .hbm, ⟨95, _⟩ => ⟨S_, .f32⟩
  | .hbm, ⟨96, _⟩ => ⟨S100000x128, .f32⟩
  | .hbm, ⟨97, _⟩ => ⟨S900000x1, .i32⟩
  | .hbm, ⟨98, _⟩ => ⟨S100000x128, .f32⟩
  | .hbm, ⟨99, _⟩ => ⟨S1x128, .f32⟩
  | .hbm, ⟨100, _⟩ => ⟨S1x128, .f32⟩
  | .hbm, ⟨101, _⟩ => ⟨S100000x128, .f32⟩
  | .hbm, ⟨102, _⟩ => ⟨S_, .i32⟩
  | .hbm, ⟨103, _⟩ => ⟨S900000, .i32⟩
  | .hbm, ⟨104, _⟩ => ⟨S900000, .i1⟩
  | .hbm, ⟨105, _⟩ => ⟨S_, .i32⟩
  | .hbm, ⟨106, _⟩ => ⟨S900000, .i32⟩
  | .hbm, ⟨107, _⟩ => ⟨S900000, .i32⟩
  | .hbm, ⟨108, _⟩ => ⟨S900000, .i32⟩
  | .hbm, ⟨109, _⟩ => ⟨S900000x1, .i32⟩
  | .hbm, ⟨110, _⟩ => ⟨S900000x128, .f32⟩
  | .hbm, ⟨111, _⟩ => ⟨S900000x1, .f32⟩
  | .hbm, ⟨112, _⟩ => ⟨S900000x128, .f32⟩
  | .hbm, ⟨113, _⟩ => ⟨S900000x128, .f32⟩
  | .hbm, ⟨114, _⟩ => ⟨S_, .f32⟩
  | .hbm, ⟨115, _⟩ => ⟨S100000x128, .f32⟩
  | .hbm, ⟨116, _⟩ => ⟨S900000x1, .i32⟩
  | .hbm, ⟨117, _⟩ => ⟨S100000x128, .f32⟩
  | .hbm, ⟨118, _⟩ => ⟨S1x128, .f32⟩
  | .hbm, ⟨119, _⟩ => ⟨S1x256, .f32⟩
  | .hbm, ⟨120, _⟩ => ⟨S100000x256, .f32⟩
  | .hbm, ⟨121, _⟩ => ⟨S1x256, .f32⟩
  | .hbm, ⟨122, _⟩ => ⟨S1x40, .f32⟩
  | .hbm, ⟨123, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x256, .f32⟩
  | .local _ .vmem, ⟨24, _⟩ => ⟨S1x128, .f32⟩
  | .local _ .vmem, ⟨25, _⟩ => ⟨S1x256, .f32⟩
  | .local _ .vmem, ⟨26, _⟩ => ⟨S5000x256, .f32⟩
  | .local _ .vmem, ⟨27, _⟩ => ⟨S5000x256, .f32⟩
  | .local _ .vmem, ⟨28, _⟩ => ⟨S5000x256, .f32⟩
  | .local _ .vmem, ⟨29, _⟩ => ⟨S5000x256, .f32⟩
  | .local _ .vmem, ⟨30, _⟩ => ⟨S256x40, .f32⟩
  | .local _ .vmem, ⟨31, _⟩ => ⟨S1x256, .f32⟩
  | .local _ .vmem, ⟨32, _⟩ => ⟨S1x40, .f32⟩
  | .local _ .vmem, ⟨33, _⟩ => ⟨S5000x40, .f32⟩
  | .local _ .vmem, ⟨34, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_c_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_17 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem4_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x40 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000 : S_.BroadcastsInDim S100000 (![] : Fin 0 → Fin S100000.rank)
  bcast_S900000_S900000x1_0 : S900000.BroadcastsInDim S900000x1 (![0] : Fin 1 → Fin S900000x1.rank)
  bcast_S_S900000 : S_.BroadcastsInDim S900000 (![] : Fin 0 → Fin S900000.rank)
  bcast_S_S128 : S_.BroadcastsInDim S128 (![] : Fin 0 → Fin S128.rank)
  bcast_S_S256 : S_.BroadcastsInDim S256 (![] : Fin 0 → Fin S256.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S5000x128_S5000x128 : S5000x128.ShapeCasts S5000x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S40_S1x40 : S40.ShapeCasts S1x40
  shapeCasts_S5000x256_S5000x256 : S5000x256.ShapeCasts S5000x256
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x256_S5000x256_1_0_0_1_n_n_wf : DotDims.WF S5000x128 S128x256 S5000x256 [1] [0] [0] [1] [] []
  dot_S5000x256_S256x40_S5000x40_1_0_0_1_n_n_wf : DotDims.WF S5000x256 S256x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x256.size a ≤ S100000x256.size a
  hwx3_4 : ∀ i : grid3.Coords, EltTy.bits .f32 = 32 ∨ (Rect.block (s := S100000x256) S5000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .f32 = 32 ∨ (Rect.block (s := S256x40) S256x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x40.size a ≤ S1x40.size a
  hwx4_3 : ∀ i : grid4.Coords, EltTy.bits .f32 = 32 ∨ (Rect.block (s := S1x40) S1x40.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x40.size a ≤ S100000x40.size a
  hwx4_4 : ∀ i : grid4.Coords, EltTy.bits .f32 = 32 ∨ (Rect.block (s := S100000x40) S5000x40.size (cc4_transform_4 i) (hinb4_4 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v66) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v84) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S5000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v85) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x40.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v88) S5000x40.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x40 : Shape := ⟨2, ![256, 40]⟩
abbrev S40 : Shape := ⟨1, ![40]⟩
abbrev S100000 : Shape := ⟨1, ![100000]⟩
abbrev S1x800000 : Shape := ⟨2, ![1, 800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x256 : Shape := ⟨2, ![100000, 256]⟩
abbrev S1x256 : Shape := ⟨2, ![1, 256]⟩
abbrev S100000x40 : Shape := ⟨2, ![100000, 40]⟩
abbrev S1x40 : Shape := ⟨2, ![1, 40]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x256, .f32⟩
  | 10 => ⟨S256, .f32⟩
  | 11 => ⟨S256x40, .f32⟩
  | 12 => ⟨S40, .f32⟩
  | 13 => ⟨S100000, .i32⟩
  | 14 => ⟨S1x800000, .i32⟩
  | 15 => ⟨S800000, .i32⟩
  | 16 => ⟨S900000, .i32⟩
  | 17 => ⟨S1x800000, .i32⟩
  | 18 => ⟨S800000, .i32⟩
  | 19 => ⟨S900000, .i32⟩
  | 20 => ⟨S_, .f32⟩
  | 21 => ⟨S100000, .f32⟩
  | 22 => ⟨S900000, .f32⟩
  | 23 => ⟨S_, .f32⟩
  | 24 => ⟨S100000, .f32⟩
  | 25 => ⟨S900000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S900000, .i32⟩
  | 37 => ⟨S900000, .i1⟩
  | 38 => ⟨S_, .i32⟩
  | 39 => ⟨S900000, .i32⟩
  | 40 => ⟨S900000, .i32⟩
  | 41 => ⟨S900000, .i32⟩
  | 42 => ⟨S900000x1, .i32⟩
  | 43 => ⟨S900000, .f32⟩
  | 44 => ⟨S900000, .f32⟩
  | 45 => ⟨S_, .i32⟩
  | 46 => ⟨S900000, .i32⟩
  | 47 => ⟨S900000, .i1⟩
  | 48 => ⟨S_, .i32⟩
  | 49 => ⟨S900000, .i32⟩
  | 50 => ⟨S900000, .i32⟩
  | 51 => ⟨S900000, .i32⟩
  | 52 => ⟨S900000x1, .i32⟩
  | 53 => ⟨S900000, .f32⟩
  | 54 => ⟨S900000, .f32⟩
  | 55 => ⟨S100000x128, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000x128, .f32⟩
  | 65 => ⟨S900000x1, .f32⟩
  | 66 => ⟨S900000x128, .f32⟩
  | 67 => ⟨S900000x128, .f32⟩
  | 68 => ⟨S_, .f32⟩
  | 69 => ⟨S100000x128, .f32⟩
  | 70 => ⟨S900000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S900000, .i32⟩
  | 81 => ⟨S900000, .i1⟩
  | 82 => ⟨S_, .i32⟩
  | 83 => ⟨S900000, .i32⟩
  | 84 => ⟨S900000, .i32⟩
  | 85 => ⟨S900000, .i32⟩
  | 86 => ⟨S900000x1, .i32⟩
  | 87 => ⟨S900000x128, .f32⟩
  | 88 => ⟨S900000x1, .f32⟩
  | 89 => ⟨S900000x128, .f32⟩
  | 90 => ⟨S900000x128, .f32⟩
  | 91 => ⟨S_, .f32⟩
  | 92 => ⟨S100000x128, .f32⟩
  | 93 => ⟨S900000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S100000x128, .f32⟩
  | 102 => ⟨S_, .i32⟩
  | 103 => ⟨S900000, .i32⟩
  | 104 => ⟨S900000, .i1⟩
  | 105 => ⟨S_, .i32⟩
  | 106 => ⟨S900000, .i32⟩
  | 107 => ⟨S900000, .i32⟩
  | 108 => ⟨S900000, .i32⟩
  | 109 => ⟨S900000x1, .i32⟩
  | 110 => ⟨S900000x128, .f32⟩
  | 111 => ⟨S900000x1, .f32⟩
  | 112 => ⟨S900000x128, .f32⟩
  | 113 => ⟨S900000x128, .f32⟩
  | 114 => ⟨S_, .f32⟩
  | 115 => ⟨S100000x128, .f32⟩
  | 116 => ⟨S900000x1, .i32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x256, .f32⟩
  | 125 => ⟨S1x256, .f32⟩
  | 126 => ⟨S100000x256, .f32⟩
  | 127 => ⟨S100000x256, .f32⟩
  | _ => ⟨S100000x128, .f32⟩

abbrev hbmTy0_1 (i : Nat) : BufTy := match i % 128 with
  | 0 => ⟨S_, .f32⟩
  | 1 => ⟨S100000x256, .f32⟩
  | 2 => ⟨S100000x256, .f32⟩
  | 3 => ⟨S100000x40, .f32⟩
  | 4 => ⟨S1x40, .f32⟩
  | 5 => ⟨S100000x40, .f32⟩
  | 6 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_c_9 : Ref sig .tc := ⟨.hbm, 79, rfl⟩
abbrev main_v51 : Ref sig .tc := ⟨.hbm, 80, rfl⟩
abbrev main_v52 : Ref sig .tc := ⟨.hbm, 81, rfl⟩
abbrev main_c_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call2_cst : Ref sig .tc := ⟨.hbm, 98, rfl⟩
abbrev main_call2_v0 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_c_13 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_14 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call4_cst : Ref sig .tc := ⟨.hbm, 128, rfl⟩
abbrev main_call4_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S100000 : S_.BroadcastsInDim S100000 (![] : Fin 0 → Fin S100000.rank)
  bcast_S900000_S900000x1_0 : S900000.BroadcastsInDim S900000x1 (![0] : Fin 1 → Fin S900000x1.rank)
  bcast_S_S900000 : S_.BroadcastsInDim S900000 (![] : Fin 0 → Fin S900000.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x256_S100000x256_1_0_0_1_n_n_wf : DotDims.WF S100000x128 S128x256 S100000x256 [1] [0] [0] [1] [] []
  dot_S100000x256_S256x40_S100000x40_1_0_0_1_n_n_wf : DotDims.WF S100000x256 S256x40 S100000x40 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.KernelRun.lean ====
/-
  The kernel's program, run: the result array is read off the last boundary of the run.

  The program is twelve segments — stretches of host operations and five tiled dense stages — and the buffer contents
  at each boundary between segments are a fold from the launch memory: a host stretch replaces the contents by the
  stretch's operations applied to them, a dense stage replaces its output array by what its row blocks write back.
  Every weakly fair execution terminates, faults nowhere, and ends with every buffer at the last boundary's contents;
  in particular the result array, and the argument arrays, which no segment writes.
-/
import proofs.«180423_j42528766165363_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program from `m` terminates without a fault; the result array ends at
    what the last boundary of the run holds for it, and every argument array ends as launched. -/
theorem run_result : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.RunValue

end
-- ==== Proof.Aggregate.lean ====
/-
  The sparse aggregation step, as ONE function of the feature array.

  With `row`, `col` the edge endpoints (self loops appended) and `norm` the symmetric normalisation weight of each
  edge, the step gathers row `col e` of the features `z` for every edge `e` (a negative index wrapped once by the
  array's length), scales it by `norm e`, and adds it into row `row e` of a zero array:
    aggF row col norm z = scatter-add over e of  norm e • z[col e, :]  into row  row e.
  Both programs apply exactly these operations between their dense stages, so the step is carried as this one
  function and is never opened: two aggregations are equal as soon as their arguments are.
-/
import proofs.«180423_j42528766165363_1_alg».proof.Proof.Gen.ReferenceIdeal.Read

noncomputable section

namespace Cert.ReferenceIdeal.Aggregate

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The aggregation step over the edge list `(row, col, norm)`, applied to the feature array `z`. -/
def aggF (row col : (⟨S900000, .i32⟩ : BufTy).Contents (Elt F)) (norm : (⟨S900000, .f32⟩ : BufTy).Contents (Elt F))
    (z : (⟨S100000x128, .f32⟩ : BufTy).Contents (Elt F)) : (⟨S100000x128, .f32⟩ : BufTy).Contents (Elt F) :=
  Host.scatterAdd scatter_S100000x128_S900000x1_S900000x128_1_0_0_1
    (broadcastInDim S100000x128 ![] bcast_S_S100000x128 (constant S_ .f32 0x00000000#32))
    (broadcastInDim S900000x1 ![0] bcast_S900000_S900000x1_0 row)
    (mulf
      (Host.gather gather_S100000x128_S900000x1_S900000x128_1_0_n_n_0_1_1128 z
        (broadcastInDim S900000x1 ![0] bcast_S900000_S900000x1_0
          (select (cmpi .slt col (broadcastInDim S900000 ![] bcast_S_S900000 (constantI S_ 32 0#32)))
            (addi col (broadcastInDim S900000 ![] bcast_S_S900000 (constantI S_ 32 100000#32))) col)))
      (broadcastInDim S900000x128 ![0, 1] bcast_S900000x1_S900000x128_0_1
        (broadcastInDim S900000x1 ![0] bcast_S900000_S900000x1_0 norm)))

/-- The normalisation weight of every edge: the inverse square-root degree `dinv` at the edge's target row, times the
    edge's weight `w`, times `dinv` at its source row (a negative row index wrapped once by the number of rows). -/
def normF (dinv : (⟨S100000, .f32⟩ : BufTy).Contents (Elt F)) (w : (⟨S900000, .f32⟩ : BufTy).Contents (Elt F))
    (row col : (⟨S900000, .i32⟩ : BufTy).Contents (Elt F)) : (⟨S900000, .f32⟩ : BufTy).Contents (Elt F) :=
  mulf
    (mulf
      (Host.gather gather_S100000_S900000x1_S900000_n_0_n_n_0_1_1 dinv
        (broadcastInDim S900000x1 ![0] bcast_S900000_S900000x1_0
          (select (cmpi .slt row (broadcastInDim S900000 ![] bcast_S_S900000 (constantI S_ 32 0#32)))
            (addi row (broadcastInDim S900000 ![] bcast_S_S900000 (constantI S_ 32 100000#32))) row)))
      w)
    (Host.gather gather_S100000_S900000x1_S900000_n_0_n_n_0_1_1 dinv
      (broadcastInDim S900000x1 ![0] bcast_S900000_S900000x1_0
        (select (cmpi .slt col (broadcastInDim S900000 ![] bcast_S_S900000 (constantI S_ 32 0#32)))
          (addi col (broadcastInDim S900000 ![] bcast_S_S900000 (constantI S_ 32 100000#32))) col)))

variable (x0 : (⟨S100000x128, .f32⟩ : BufTy).Contents (Elt F)) (x1 : (⟨S2x800000, .i32⟩ : BufTy).Contents (Elt F))
  (x2 : (⟨S800000, .f32⟩ : BufTy).Contents (Elt F)) (x3 : (⟨S128x128, .f32⟩ : BufTy).Contents (Elt F))
  (x4 : (⟨S128, .f32⟩ : BufTy).Contents (Elt F)) (x5 : (⟨S128x128, .f32⟩ : BufTy).Contents (Elt F))
  (x6 : (⟨S128, .f32⟩ : BufTy).Contents (Elt F)) (x7 : (⟨S128x128, .f32⟩ : BufTy).Contents (Elt F))

/-- The reference's normalisation weights are `normF` of its inverse square-root degrees, edge weights and edge endpoints. -/
theorem v31_eq : val_main_v31 (F := F) x1 x2
    = normF (val_main_v15 (F := F) x1 x2) (val_main_v8 (F := F) x2) (val_main_v3 (F := F) x1) (val_main_v6 (F := F) x1) := rfl

/-- The reference's inverse square-root degrees: where the degree is positive its inverse square root, elsewhere zero. -/
theorem v15_eq : val_main_v15 (F := F) x1 x2
    = select (val_main_v13 (F := F) x1 x2) (val_main_v14 (F := F) x1 x2)
        (broadcastInDim S100000 ![] bcast_S_S100000 (val_main_cst_2 (F := F))) := rfl

/-- The reference's first aggregation is the step applied to its first product. -/
theorem v45_eq : val_main_v45 (F := F) x0 x1 x2 x3
    = aggF (val_main_v3 (F := F) x1) (val_main_v6 (F := F) x1) (val_main_v31 (F := F) x1 x2) (val_main_v32 (F := F) x0 x3) := rfl

/-- The reference's second aggregation is the step applied to its second product. -/
theorem v63_eq : val_main_v63 (F := F) x0 x1 x2 x3 x4 x5
    = aggF (val_main_v3 (F := F) x1) (val_main_v6 (F := F) x1) (val_main_v31 (F := F) x1 x2) (val_main_v50 (F := F) x0 x1 x2 x3 x4 x5) := rfl

/-- The reference's third aggregation is the step applied to its third product. -/
theorem v81_eq : val_main_v81 (F := F) x0 x1 x2 x3 x4 x5 x6 x7
    = aggF (val_main_v3 (F := F) x1) (val_main_v6 (F := F) x1) (val_main_v31 (F := F) x1 x2) (val_main_v68 (F := F) x0 x1 x2 x3 x4 x5 x6 x7) := rfl

end Cert.ReferenceIdeal.Aggregate

end
-- ==== Proof.KernelWalk.lean ====
/-
  The kernel program's buffers, followed from one boundary of its run to the next.

  No segment of the program writes an argument array, so at every boundary an argument holds its launch contents.
  The edge endpoints `row`, `col` and the normalisation weights `norm` are computed once, by the host operations
  before the first dense stage, by the same operations as in the reference — they ARE the reference's values of the
  same arguments —, and no later segment writes them; likewise the two zero vectors the stages' zero biases are
  reshaped from.
-/
import proofs.«180423_j42528766165363_1_alg».proof.Proof.Gen.KernelIdeal.Frame
import proofs.«180423_j42528766165363_1_alg».proof.Proof.Aggregate
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat Cfg Window)

/-- A buffer none of a stretch's operations writes holds after the stretch what it held before. -/
macro "kernel_unwritten" : tactic => `(tactic| (
  refine StableHlo.after_of_forall_not_mem _ _ (List.forall_iff_forall_mem.mp ?_)
  simp only [hostOps0, hostOps0_1, hostOps0_2, hostOps1, hostOps2, hostOps3, hostOps4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The arguments, where a stage or a reshape reads them -/

/-- The features, as the first stage finds them. -/
theorem W3_main_arg0 : W3 m ρ c (Proc.devRef .tc main_arg0) = m ((c : Thread nD τ).loc main_arg0) :=
  calc W3 m ρ c (Proc.devRef .tc main_arg0)
    _ = W2 m ρ c (Proc.devRef .tc main_arg0) := by kernel_unwritten
    _ = W1 m ρ c (Proc.devRef .tc main_arg0) := by kernel_unwritten
    _ = W0 m ρ c (Proc.devRef .tc main_arg0) := by kernel_unwritten
    _ = m ((c : Thread nD τ).loc main_arg0) := rfl

/-- The first weight matrix, as the first stage finds it. -/
theorem W3_main_arg3 : W3 m ρ c (Proc.devRef .tc main_arg3) = m ((c : Thread nD τ).loc main_arg3) :=
  calc W3 m ρ c (Proc.devRef .tc main_arg3)
    _ = W2 m ρ c (Proc.devRef .tc main_arg3) := by kernel_unwritten
    _ = W1 m ρ c (Proc.devRef .tc main_arg3) := by kernel_unwritten
    _ = W0 m ρ c (Proc.devRef .tc main_arg3) := by kernel_unwritten
    _ = m ((c : Thread nD τ).loc main_arg3) := rfl

/-- The first bias, as the reshape before the second stage finds it. -/
theorem W4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by kernel_unwritten
    _ = W1 m ρ c (Proc.devRef .tc main_arg4) := by kernel_unwritten
    _ = W0 m ρ c (Proc.devRef .tc main_arg4) := by kernel_unwritten
    _ = m ((c : Thread nD τ).loc main_arg4) := rfl

/-- The second weight matrix, as the second stage finds it. -/
theorem W5_main_arg5 : W5 m ρ c (Proc.devRef .tc main_arg5) = m ((c : Thread nD τ).loc main_arg5) :=
  calc W5 m ρ c (Proc.devRef .tc main_arg5)
    _ = W4 m ρ c (Proc.devRef .tc main_arg5) := by kernel_unwritten
    _ = W3 m ρ c (Proc.devRef .tc main_arg5) := W4_of_ne m ρ c main_arg5 (by decide)
    _ = W2 m ρ c (Proc.devRef .tc main_arg5) := by kernel_unwritten
    _ = W1 m ρ c (Proc.devRef .tc main_arg5) := by kernel_unwritten
    _ = W0 m ρ c (Proc.devRef .tc main_arg5) := by kernel_unwritten
    _ = m ((c : Thread nD τ).loc main_arg5) := rfl

/-- The second bias, as the reshape before the third stage finds it. -/
theorem W6_main_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by kernel_unwritten
    _ = W3 m ρ c (Proc.devRef .tc main_arg6) := W4_of_ne m ρ c main_arg6 (by decide)
    _ = W2 m ρ c (Proc.devRef .tc main_arg6) := by kernel_unwritten
    _ = W1 m ρ c (Proc.devRef .tc main_arg6) := by kernel_unwritten
    _ = W0 m ρ c (Proc.devRef .tc main_arg6) := by kernel_unwritten
    _ = m ((c : Thread nD τ).loc main_arg6) := rfl

/-- The third weight matrix, as the third stage finds it. -/
theorem W7_main_arg7 : W7 m ρ c (Proc.devRef .tc main_arg7) = m ((c : Thread nD τ).loc main_arg7) :=
  calc W7 m ρ c (Proc.devRef .tc main_arg7)
    _ = W6 m ρ c (Proc.devRef .tc main_arg7) := by kernel_unwritten
    _ = W5 m ρ c (Proc.devRef .tc main_arg7) := W6_of_ne m ρ c main_arg7 (by decide)
    _ = W4 m ρ c (Proc.devRef .tc main_arg7) := by kernel_unwritten
    _ = W3 m ρ c (Proc.devRef .tc main_arg7) := W4_of_ne m ρ c main_arg7 (by decide)
    _ = W2 m ρ c (Proc.devRef .tc main_arg7) := by kernel_unwritten
    _ = W1 m ρ c (Proc.devRef .tc main_arg7) := by kernel_unwritten
    _ = W0 m ρ c (Proc.devRef .tc main_arg7) := by kernel_unwritten
    _ = m ((c : Thread nD τ).loc main_arg7) := rfl

/-- The third bias, as the reshape before the fourth stage finds it. -/
theorem W8_main_arg8 : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by kernel_unwritten
    _ = W5 m ρ c (Proc.devRef .tc main_arg8) := W6_of_ne m ρ c main_arg8 (by decide)
    _ = W4 m ρ c (Proc.devRef .tc main_arg8) := by kernel_unwritten
    _ = W3 m ρ c (Proc.devRef .tc main_arg8) := W4_of_ne m ρ c main_arg8 (by decide)
    _ = W2 m ρ c (Proc.devRef .tc main_arg8) := by kernel_unwritten
    _ = W1 m ρ c (Proc.devRef .tc main_arg8) := by kernel_unwritten
    _ = W0 m ρ c (Proc.devRef .tc main_arg8) := by kernel_unwritten
    _ = m ((c : Thread nD τ).loc main_arg8) := rfl

/-- The fourth weight matrix, as the fourth stage finds it. -/
theorem W9_main_arg9 : W9 m ρ c (Proc.devRef .tc main_arg9) = m ((c : Thread nD τ).loc main_arg9) :=
  calc W9 m ρ c (Proc.devRef .tc main_arg9)
    _ = W8 m ρ c (Proc.devRef .tc main_arg9) := by kernel_unwritten
    _ = W7 m ρ c (Proc.devRef .tc main_arg9) := W8_of_ne m ρ c main_arg9 (by decide)
    _ = W6 m ρ c (Proc.devRef .tc main_arg9) := by kernel_unwritten
    _ = W5 m ρ c (Proc.devRef .tc main_arg9) := W6_of_ne m ρ c main_arg9 (by decide)
    _ = W4 m ρ c (Proc.devRef .tc main_arg9) := by kernel_unwritten
    _ = W3 m ρ c (Proc.devRef .tc main_arg9) := W4_of_ne m ρ c main_arg9 (by decide)
    _ = W2 m ρ c (Proc.devRef .tc main_arg9) := by kernel_unwritten
    _ = W1 m ρ c (Proc.devRef .tc main_arg9) := by kernel_unwritten
    _ = W0 m ρ c (Proc.devRef .tc main_arg9) := by kernel_unwritten
    _ = m ((c : Thread nD τ).loc main_arg9) := rfl

/-- The fourth bias, as the reshape before the last stage finds it. -/
theorem W10_main_arg10 : W10 m ρ c (Proc.devRef .tc main_arg10) = m ((c : Thread nD τ).loc main_arg10) :=
  calc W10 m ρ c (Proc.devRef .tc main_arg10)
    _ = W9 m ρ c (Proc.devRef .tc main_arg10) := W10_of_ne m ρ c main_arg10 (by decide)
    _ = W8 m ρ c (Proc.devRef .tc main_arg10) := by kernel_unwritten
    _ = W7 m ρ c (Proc.devRef .tc main_arg10) := W8_of_ne m ρ c main_arg10 (by decide)
    _ = W6 m ρ c (Proc.devRef .tc main_arg10) := by kernel_unwritten
    _ = W5 m ρ c (Proc.devRef .tc main_arg10) := W6_of_ne m ρ c main_arg10 (by decide)
    _ = W4 m ρ c (Proc.devRef .tc main_arg10) := by kernel_unwritten
    _ = W3 m ρ c (Proc.devRef .tc main_arg10) := W4_of_ne m ρ c main_arg10 (by decide)
    _ = W2 m ρ c (Proc.devRef .tc main_arg10) := by kernel_unwritten
    _ = W1 m ρ c (Proc.devRef .tc main_arg10) := by kernel_unwritten
    _ = W0 m ρ c (Proc.devRef .tc main_arg10) := by kernel_unwritten
    _ = m ((c : Thread nD τ).loc main_arg10) := rfl

/-- The last bias, as the reshape before the last stage finds it. -/
theorem W10_main_arg12 : W10 m ρ c (Proc.devRef .tc main_arg12) = m ((c : Thread nD τ).loc main_arg12) :=
  calc W10 m ρ c (Proc.devRef .tc main_arg12)
    _ = W9 m ρ c (Proc.devRef .tc main_arg12) := W10_of_ne m ρ c main_arg12 (by decide)
    _ = W8 m ρ c (Proc.devRef .tc main_arg12) := by kernel_unwritten
    _ = W7 m ρ c (Proc.devRef .tc main_arg12) := W8_of_ne m ρ c main_arg12 (by decide)
    _ = W6 m ρ c (Proc.devRef .tc main_arg12) := by kernel_unwritten
    _ = W5 m ρ c (Proc.devRef .tc main_arg12) := W6_of_ne m ρ c main_arg12 (by decide)
    _ = W4 m ρ c (Proc.devRef .tc main_arg12) := by kernel_unwritten
    _ = W3 m ρ c (Proc.devRef .tc main_arg12) := W4_of_ne m ρ c main_arg12 (by decide)
    _ = W2 m ρ c (Proc.devRef .tc main_arg12) := by kernel_unwritten
    _ = W1 m ρ c (Proc.devRef .tc main_arg12) := by kernel_unwritten
    _ = W0 m ρ c (Proc.devRef .tc main_arg12) := by kernel_unwritten
    _ = m ((c : Thread nD τ).loc main_arg12) := rfl

/-- The last weight matrix, as the last stage finds it. -/
theorem W11_main_arg11 : W11 m ρ c (Proc.devRef .tc main_arg11) = m ((c : Thread nD τ).loc main_arg11) :=
  calc W11 m ρ c (Proc.devRef .tc main_arg11)
    _ = W10 m ρ c (Proc.devRef .tc main_arg11) := by kernel_unwritten
    _ = W9 m ρ c (Proc.devRef .tc main_arg11) := W10_of_ne m ρ c main_arg11 (by decide)
    _ = W8 m ρ c (Proc.devRef .tc main_arg11) := by kernel_unwritten
    _ = W7 m ρ c (Proc.devRef .tc main_arg11) := W8_of_ne m ρ c main_arg11 (by decide)
    _ = W6 m ρ c (Proc.devRef .tc main_arg11) := by kernel_unwritten
    _ = W5 m ρ c (Proc.devRef .tc main_arg11) := W6_of_ne m ρ c main_arg11 (by decide)
    _ = W4 m ρ c (Proc.devRef .tc main_arg11) := by kernel_unwritten
    _ = W3 m ρ c (Proc.devRef .tc main_arg11) := W4_of_ne m ρ c main_arg11 (by decide)
    _ = W2 m ρ c (Proc.devRef .tc main_arg11) := by kernel_unwritten
    _ = W1 m ρ c (Proc.devRef .tc main_arg11) := by kernel_unwritten
    _ = W0 m ρ c (Proc.devRef .tc main_arg11) := by kernel_unwritten
    _ = m ((c : Thread nD τ).loc main_arg11) := rfl

/-! ## The edge list and the zero vectors, computed before the first stage -/

/-- The edges' target rows are the reference's, of the same edge index. -/
theorem W3_main_v3 : W3 m ρ c (Proc.devRef .tc main_v3) = Cert.ReferenceIdeal.Read.val_main_v3 (F := Ideal) (m ((c : Thread nD τ).loc main_arg1)) := by
  dsimp only [W3, W2, W1, W0, hostOps0, hostOps0_1, hostOps0_2]
  after_results_simp <;> rfl

/-- The edges' source rows are the reference's, of the same edge index. -/
theorem W3_main_v6 : W3 m ρ c (Proc.devRef .tc main_v6) = Cert.ReferenceIdeal.Read.val_main_v6 (F := Ideal) (m ((c : Thread nD τ).loc main_arg1)) := by
  dsimp only [W3, W2, W1, W0, hostOps0, hostOps0_1, hostOps0_2]
  after_results_simp <;> rfl

/-! ### The normalisation weights, stretch by stretch

  The weights are computed in three stretches: the degrees, their inverse square roots and the comparison with zero
  (first stretch); the choice between the inverse square root and zero (second); the two gathers and products
  (third). Each stretch is read for an ARBITRARY valuation of the buffers it starts from, then at the contents the
  run has there. -/

/-- After the first stretch: the edges' target rows. -/
theorem W1_main_v3 : W1 m ρ c (Proc.devRef .tc main_v3) = Cert.ReferenceIdeal.Read.val_main_v3 (F := Ideal) (m ((c : Thread nD τ).loc main_arg1)) := by
  dsimp only [W1, W0, hostOps0]
  after_results_simp <;> rfl
/-- After the first stretch: the edges' source rows. -/
theorem W1_main_v6 : W1 m ρ c (Proc.devRef .tc main_v6) = Cert.ReferenceIdeal.Read.val_main_v6 (F := Ideal) (m ((c : Thread nD τ).loc main_arg1)) := by
  dsimp only [W1, W0, hostOps0]
  after_results_simp <;> rfl
/-- After the first stretch: the edge weights with the self loops' ones appended. -/
theorem W1_main_v8 : W1 m ρ c (Proc.devRef .tc main_v8) = Cert.ReferenceIdeal.Read.val_main_v8 (F := Ideal) (m ((c : Thread nD τ).loc main_arg2)) := by
  dsimp only [W1, W0, hostOps0]
  after_results_simp <;> rfl
/-- After the first stretch: where the degree is positive. -/
theorem W1_main_v13 : W1 m ρ c (Proc.devRef .tc main_v13) = Cert.ReferenceIdeal.Read.val_main_v13 (F := Ideal) (m ((c : Thread nD τ).loc main_arg1)) (m ((c : Thread nD τ).loc main_arg2)) := by
  dsimp only [W1, W0, hostOps0]
  after_results_simp <;> rfl
/-- After the first stretch: the degrees' inverse square roots. -/
theorem W1_main_v14 : W1 m ρ c (Proc.devRef .tc main_v14) = Cert.ReferenceIdeal.Read.val_main_v14 (F := Ideal) (m ((c : Thread nD τ).loc main_arg1)) (m ((c : Thread nD τ).loc main_arg2)) := by
  dsimp only [W1, W0, hostOps0]
  after_results_simp <;> rfl
/-- After the first stretch: the scalar zero. -/
theorem W1_main_cst_2 : W1 m ρ c (Proc.devRef .tc main_cst_2) = Cert.ReferenceIdeal.Read.val_main_cst_2 (F := Ideal) := by
  dsimp only [W1, W0, hostOps0]
  after_results_simp <;> rfl

/-- The second stretch, from any contents: the choice between the inverse square root and zero. -/
theorem where_stretch (V : Valuation τ sig (Elt Ideal)) :
    StableHlo.after hostOps0_1 V (Proc.devRef .tc main_v15)
      = select (V (Proc.devRef .tc main_v13)) (V (Proc.devRef .tc main_v14)) (broadcastInDim S100000 ![] bcast_S_S100000 (V (Proc.devRef .tc main_cst_2))) := by
  dsimp only [hostOps0_1]
  after_results_simp <;> rfl

/-- After the second stretch: the inverse square-root degrees are the reference's. -/
theorem W2_main_v15 : W2 m ρ c (Proc.devRef .tc main_v15) = Cert.ReferenceIdeal.Read.val_main_v15 (F := Ideal) (m ((c : Thread nD τ).loc main_arg1)) (m ((c : Thread nD τ).loc main_arg2)) :=
  (where_stretch (W1 m ρ c)).trans (by
    rw [W1_main_v13, W1_main_v14, W1_main_cst_2]
    exact (Cert.ReferenceIdeal.Aggregate.v15_eq _ _).symm)

/-- The second stretch writes none of the edge rows and weights. -/
theorem W2_main_v3 : W2 m ρ c (Proc.devRef .tc main_v3) = Cert.ReferenceIdeal.Read.val_main_v3 (F := Ideal) (m ((c : Thread nD τ).loc main_arg1)) :=
  (by kernel_unwritten : W2 m ρ c (Proc.devRef .tc main_v3) = W1 m ρ c (Proc.devRef .tc main_v3)).trans (W1_main_v3 m ρ c)
theorem W2_main_v6 : W2 m ρ c (Proc.devRef .tc main_v6) = Cert.ReferenceIdeal.Read.val_main_v6 (F := Ideal) (m ((c : Thread nD τ).loc main_arg1)) :=
  (by kernel_unwritten : W2 m ρ c (Proc.devRef .tc main_v6) = W1 m ρ c (Proc.devRef .tc main_v6)).trans (W1_main_v6 m ρ c)
theorem W2_main_v8 : W2 m ρ c (Proc.devRef .tc main_v8) = Cert.ReferenceIdeal.Read.val_main_v8 (F := Ideal) (m ((c : Thread nD τ).loc main_arg2)) :=
  (by kernel_unwritten : W2 m ρ c (Proc.devRef .tc main_v8) = W1 m ρ c (Proc.devRef .tc main_v8)).trans (W1_main_v8 m ρ c)

/-- The third stretch, from any contents: the normalisation weights of the inverse square-root degrees, the edge
    weights and the edge rows found there. -/
theorem norm_stretch (V : Valuation τ sig (Elt Ideal)) :
    StableHlo.after hostOps0_2 V (Proc.devRef .tc main_v31)
      = Cert.ReferenceIdeal.Aggregate.normF (F := Ideal) (V (Proc.devRef .tc main_v15)) (V (Proc.devRef .tc main_v8)) (V (Proc.devRef .tc main_v3)) (V (Proc.devRef .tc main_v6)) := by
  dsimp only [hostOps0_2]
  after_results_simp <;> rfl

/-- The edges' normalisation weights are the reference's, of the same edge index and edge weights. -/
theorem W3_main_v31 : W3 m ρ c (Proc.devRef .tc main_v31) = Cert.ReferenceIdeal.Read.val_main_v31 (F := Ideal) (m ((c : Thread nD τ).loc main_arg1)) (m ((c : Thread nD τ).loc main_arg2)) :=
  (norm_stretch (W2 m ρ c)).trans (by
    rw [W2_main_v15, W2_main_v8, W2_main_v3, W2_main_v6]
    exact (Cert.ReferenceIdeal.Aggregate.v31_eq _ _).symm)

/-- The zero vector of length 128. -/
theorem W3_main_v32 : W3 m ρ c (Proc.devRef .tc main_v32) = broadcastInDim S128 ![] bcast_S_S128 (constant (F := Ideal) S_ .f32 0x00000000#32) := by
  dsimp only [W3, W2, W1, W0, hostOps0, hostOps0_1, hostOps0_2]
  after_results_simp <;> rfl

/-- The zero vector of length 256. -/
theorem W3_main_v33 : W3 m ρ c (Proc.devRef .tc main_v33) = broadcastInDim S256 ![] bcast_S_S256 (constant (F := Ideal) S_ .f32 0x00000000#32) := by
  dsimp only [W3, W2, W1, W0, hostOps0, hostOps0_1, hostOps0_2]
  after_results_simp <;> rfl

/-- The first stage's post-bias row: the zero vector of length 128 as one row. -/
theorem W3_main_v36 : W3 m ρ c (Proc.devRef .tc main_v36) = shapeCast S1x128 (broadcastInDim S128 ![] bcast_S_S128 (constant (F := Ideal) S_ .f32 0x00000000#32)) shapeCasts_S128_S1x128 := by
  dsimp only [W3, W2, W1, W0, hostOps0, hostOps0_1, hostOps0_2]
  after_results_simp <;> rfl

/-! ## … and where each later stretch reads them -/

/-- The target rows at boundary 4. -/
theorem W4_main_v3 : W4 m ρ c (Proc.devRef .tc main_v3) = Cert.ReferenceIdeal.Read.val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = Cert.ReferenceIdeal.Read.val_main_v3 (F := Ideal) (m ((c : Thread nD τ).loc main_arg1)) := W3_main_v3 m ρ c

/-- The source rows at boundary 4. -/
theorem W4_main_v6 : W4 m ρ c (Proc.devRef .tc main_v6) = Cert.ReferenceIdeal.Read.val_main_v6 (F := Ideal) (m ((c : Thread nD τ).loc main_arg1)) :=
  calc W4 m ρ c (Proc.devRef .tc main_v6)
    _ = W3 m ρ c (Proc.devRef .tc main_v6) := W4_of_ne m ρ c main_v6 (by decide)
    _ = Cert.ReferenceIdeal.Read.val_main_v6 (F := Ideal) (m ((c : Thread nD τ).loc main_arg1)) := W3_main_v6 m ρ c

/-- The normalisation weights at boundary 4. -/
theorem W4_main_v31 : W4 m ρ c (Proc.devRef .tc main_v31) = Cert.ReferenceIdeal.Read.val_main_v31 (F := Ideal) (m ((c : Thread nD τ).loc main_arg1)) (m ((c : Thread nD τ).loc main_arg2)) :=
  calc W4 m ρ c (Proc.devRef .tc main_v31)
    _ = W3 m ρ c (Proc.devRef .tc main_v31) := W4_of_ne m ρ c main_v31 (by decide)
    _ = Cert.ReferenceIdeal.Read.val_main_v31 (F := Ideal) (m ((c : Thread nD τ).loc main_arg1)) (m ((c : Thread nD τ).loc main_arg2)) := W3_main_v31 m ρ c

/-- The target rows at boundary 6. -/
theorem W6_main_v3 : W6 m ρ c (Proc.devRef .tc main_v3) = Cert.ReferenceIdeal.Read.val_main_v3 (F := Ideal) (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by kernel_unwritten
    _ = W3 m ρ c (Proc.devRef .tc main_v3) := W4_of_ne m ρ c main_v3 (by decide)
    _ = Cert.ReferenceIdeal.Read.val_main_v3 (F := Ideal) (m ((c : Thread nD τ).loc main_arg1)) := W3_main_v3 m ρ c

/-- The source rows at boundary 6. -/
theorem W6_main_v6 : W6 m ρ c (Proc.devRef .tc main_v6) = Cert.ReferenceIdeal.Read.val_main_v6 (F := Ideal) (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by kernel_unwritten
    _ = W3 m ρ c (Proc.devRef .tc main_v6) := W4_of_ne m ρ c main_v6 (by decide)
    _ = Cert.ReferenceIdeal.Read.val_main_v6 (F := Ideal) (m ((c : Thread nD τ).loc main_arg1)) := W3_main_v6 m ρ c

/-- The normalisation weights at boundary 6. -/
theorem W6_main_v31 : W6 m ρ c (Proc.devRef .tc main_v31) = Cert.ReferenceIdeal.Read.val_main_v31 (F := Ideal) (m ((c : Thread nD τ).loc main_arg1)) (m ((c : Thread nD τ).loc main_arg2)) :=
  calc W6 m ρ c (Proc.devRef .tc main_v31)
    _ = W5 m ρ c (Proc.devRef .tc main_v31) := W6_of_ne m ρ c main_v31 (by decide)
    _ = W4 m ρ c (Proc.devRef .tc main_v31) := by kernel_unwritten
    _ = W3 m ρ c (Proc.devRef .tc main_v31) := W4_of_ne m ρ c main_v31 (by decide)
    _ = Cert.ReferenceIdeal.Read.val_main_v31 (F := Ideal) (m ((c : Thread nD τ).loc main_arg1)) (m ((c : Thread nD τ).loc main_arg2)) := W3_main_v31 m ρ c

/-- The target rows at boundary 8. -/
theorem W8_main_v3 : W8 m ρ c (Proc.devRef .tc main_v3) = Cert.ReferenceIdeal.Read.val_main_v3 (F := Ideal) (m ((c : Thread nD τ).loc main_arg1)) :=
  calc W8 m ρ c (Proc.devRef .tc main_v3)
    _ = W7 m ρ c (Proc.devRef .tc main_v3) := W8_of_ne m ρ c main_v3 (by decide)
    _ = W6 m ρ c (Proc.devRef .tc main_v3) := by kernel_unwritten
    _ = W5 m ρ c (Proc.devRef .tc main_v3) := W6_of_ne m ρ c main_v3 (by decide)
    _ = W4 m ρ c (Proc.devRef .tc main_v3) := by kernel_unwritten
    _ = W3 m ρ c (Proc.devRef .tc main_v3) := W4_of_ne m ρ c main_v3 (by decide)
    _ = Cert.ReferenceIdeal.Read.val_main_v3 (F := Ideal) (m ((c : Thread nD τ).loc main_arg1)) := W3_main_v3 m ρ c

/-- The source rows at boundary 8. -/
theorem W8_main_v6 : W8 m ρ c (Proc.devRef .tc main_v6) = Cert.ReferenceIdeal.Read.val_main_v6 (F := Ideal) (m ((c : Thread nD τ).loc main_arg1)) :=
  calc W8 m ρ c (Proc.devRef .tc main_v6)
    _ = W7 m ρ c (Proc.devRef .tc main_v6) := W8_of_ne m ρ c main_v6 (by decide)
    _ = W6 m ρ c (Proc.devRef .tc main_v6) := by kernel_unwritten
    _ = W5 m ρ c (Proc.devRef .tc main_v6) := W6_of_ne m ρ c main_v6 (by decide)
    _ = W4 m ρ c (Proc.devRef .tc main_v6) := by kernel_unwritten
    _ = W3 m ρ c (Proc.devRef .tc main_v6) := W4_of_ne m ρ c main_v6 (by decide)
    _ = Cert.ReferenceIdeal.Read.val_main_v6 (F := Ideal) (m ((c : Thread nD τ).loc main_arg1)) := W3_main_v6 m ρ c

/-- The normalisation weights at boundary 8. -/
theorem W8_main_v31 : W8 m ρ c (Proc.devRef .tc main_v31) = Cert.ReferenceIdeal.Read.val_main_v31 (F := Ideal) (m ((c : Thread nD τ).loc main_arg1)) (m ((c : Thread nD τ).loc main_arg2)) :=
  calc W8 m ρ c (Proc.devRef .tc main_v31)
    _ = W7 m ρ c (Proc.devRef .tc main_v31) := W8_of_ne m ρ c main_v31 (by decide)
    _ = W6 m ρ c (Proc.devRef .tc main_v31) := by kernel_unwritten
    _ = W5 m ρ c (Proc.devRef .tc main_v31) := W6_of_ne m ρ c main_v31 (by decide)
    _ = W4 m ρ c (Proc.devRef .tc main_v31) := by kernel_unwritten
    _ = W3 m ρ c (Proc.devRef .tc main_v31) := W4_of_ne m ρ c main_v31 (by decide)
    _ = Cert.ReferenceIdeal.Read.val_main_v31 (F := Ideal) (m ((c : Thread nD τ).loc main_arg1)) (m ((c : Thread nD τ).loc main_arg2)) := W3_main_v31 m ρ c

/-- The zero vector of length 128 at boundary 4. -/
theorem W4_main_v32 : W4 m ρ c (Proc.devRef .tc main_v32) = broadcastInDim S128 ![] bcast_S_S128 (constant (F := Ideal) S_ .f32 0x00000000#32) :=
  calc W4 m ρ c (Proc.devRef .tc main_v32)
    _ = W3 m ρ c (Proc.devRef .tc main_v32) := W4_of_ne m ρ c main_v32 (by decide)
    _ = broadcastInDim S128 ![] bcast_S_S128 (constant (F := Ideal) S_ .f32 0x00000000#32) := W3_main_v32 m ρ c

/-- The zero vector of length 128 at boundary 6. -/
theorem W6_main_v32 : W6 m ρ c (Proc.devRef .tc main_v32) = broadcastInDim S128 ![] bcast_S_S128 (constant (F := Ideal) S_ .f32 0x00000000#32) :=
  calc W6 m ρ c (Proc.devRef .tc main_v32)
    _ = W5 m ρ c (Proc.devRef .tc main_v32) := W6_of_ne m ρ c main_v32 (by decide)
    _ = W4 m ρ c (Proc.devRef .tc main_v32) := by kernel_unwritten
    _ = W3 m ρ c (Proc.devRef .tc main_v32) := W4_of_ne m ρ c main_v32 (by decide)
    _ = broadcastInDim S128 ![] bcast_S_S128 (constant (F := Ideal) S_ .f32 0x00000000#32) := W3_main_v32 m ρ c

/-- The zero vector of length 256 at boundary 8. -/
theorem W8_main_v33 : W8 m ρ c (Proc.devRef .tc main_v33) = broadcastInDim S256 ![] bcast_S_S256 (constant (F := Ideal) S_ .f32 0x00000000#32) :=
  calc W8 m ρ c (Proc.devRef .tc main_v33)
    _ = W7 m ρ c (Proc.devRef .tc main_v33) := W8_of_ne m ρ c main_v33 (by decide)
    _ = W6 m ρ c (Proc.devRef .tc main_v33) := by kernel_unwritten
    _ = W5 m ρ c (Proc.devRef .tc main_v33) := W6_of_ne m ρ c main_v33 (by decide)
    _ = W4 m ρ c (Proc.devRef .tc main_v33) := by kernel_unwritten
    _ = W3 m ρ c (Proc.devRef .tc main_v33) := W4_of_ne m ρ c main_v33 (by decide)
    _ = broadcastInDim S256 ![] bcast_S_S256 (constant (F := Ideal) S_ .f32 0x00000000#32) := W3_main_v33 m ρ c

end Cert.KernelIdeal.Walk

end
-- ==== Proof.LibRows.lean ====
/-
  Two facts about one-row arrays, over literal lengths.

  A vector of length K reshaped to a 1 × K array holds, at column k of its one row, the vector's entry k; and a
  splat of the zero word holds the real number zero at every index.
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRows

open Idealize.ShloMosaic Idealize.ShloMosaic.ValueIdx

/-- A vector reshaped to one row, read in that row: entry `k` of the vector. -/
theorem row_apply {K : Nat} (v : FVec Ideal ⟨1, ![K]⟩ .f32) (h : (⟨1, ![K]⟩ : Shape).ShapeCasts ⟨2, ![1, K]⟩) (k : Fin K) :
    shapeCast (⟨2, ![1, K]⟩ : Shape) v h (ix2 (0 : Fin 1) k) = v (ix1 k) := by
  refine (shapeCast_addUnit_apply ![K] v h (ix2 (0 : Fin 1) k)).trans (congrArg v ?_)
  funext a; match a with | ⟨0, _⟩ => rfl

/-- A splat of the zero word over a vector's shape, read anywhere: the real number zero. -/
theorem zeros_apply {K : Nat} (h : (⟨0, ![]⟩ : Shape).BroadcastsInDim ⟨1, ![K]⟩ ![]) (j : (⟨1, ![K]⟩ : Shape).Idx) :
    broadcastInDim (⟨1, ![K]⟩ : Shape) ![] h (constant (F := Ideal) ⟨0, ![]⟩ .f32 0x00000000#32) j = 0 := by
  rw [broadcastInDim_apply ![] h _ j ix0 (fun a => a.elim0)]
  exact Ideal.ofBits_zero_f32

/-- The zero vector reshaped to one row is zero in every column. -/
theorem zero_row_apply {K : Nat} (hb : (⟨0, ![]⟩ : Shape).BroadcastsInDim ⟨1, ![K]⟩ ![])
    (h : (⟨1, ![K]⟩ : Shape).ShapeCasts ⟨2, ![1, K]⟩) (k : Fin K) :
    shapeCast (⟨2, ![1, K]⟩ : Shape) (broadcastInDim (⟨1, ![K]⟩ : Shape) ![] hb (constant (F := Ideal) ⟨0, ![]⟩ .f32 0x00000000#32)) h
      (ix2 (0 : Fin 1) k) = 0 := by
  rw [row_apply]; exact zeros_apply hb _

end Cert.LibRows

end
-- ==== Proof.DenseSpec.lean ====
/-
  The dense stage both programs compute, as ONE function of whole arrays over the extended reals.

  Row `r`, column `c` of a stage's result is the inner product of row `r` of the (optionally biased and
  rectified) input with column `c` of the weight matrix, plus a row-vector bias:
    lin      x w b'      (r, c) = (∑ k, x (r, k) * w (k, c)) + b' (0, c)
    reluLin  x w b b'    (r, c) = (∑ k, max (x (r, k) + b (0, k)) 0 * w (k, c)) + b' (0, c)
  The biases are 1 × K and 1 × M arrays (a vector reshaped to one row). No program is imported here.
-/
import Idealize.ShloMosaic.PureOps.Ideal
import Idealize.ShloMosaic.PureOps.Ideal.Laws
import Idealize.ShloMosaic.Lib.ValueIdx

noncomputable section

namespace Cert.DenseSpec

open Idealize.ShloMosaic Idealize.ShloMosaic.ValueIdx

/-- `x · w` plus a one-row bias, entry by entry. -/
def lin (n K M : Nat) (x : FVec Ideal ⟨2, ![n, K]⟩ .f32) (w : FVec Ideal ⟨2, ![K, M]⟩ .f32)
    (bpost : FVec Ideal ⟨2, ![1, M]⟩ .f32) : FVec Ideal ⟨2, ![n, M]⟩ .f32 :=
  fun i => (∑ k : Fin K, x (ix2 (i 0) k) * w (ix2 k (i 1))) + bpost (ix2 (0 : Fin 1) (i 1))

/-- `max (x + b) 0 · w` plus a one-row bias, entry by entry: the bias `b` is added to every row of `x` before the
    rectification. -/
def reluLin (n K M : Nat) (x : FVec Ideal ⟨2, ![n, K]⟩ .f32) (w : FVec Ideal ⟨2, ![K, M]⟩ .f32)
    (bpre : FVec Ideal ⟨2, ![1, K]⟩ .f32) (bpost : FVec Ideal ⟨2, ![1, M]⟩ .f32) : FVec Ideal ⟨2, ![n, M]⟩ .f32 :=
  fun i => (∑ k : Fin K, max (x (ix2 (i 0) k) + bpre (ix2 (0 : Fin 1) k)) 0 * w (ix2 k (i 1))) + bpost (ix2 (0 : Fin 1) (i 1))

theorem lin_apply (n K M : Nat) (x : FVec Ideal ⟨2, ![n, K]⟩ .f32) (w : FVec Ideal ⟨2, ![K, M]⟩ .f32)
    (bpost : FVec Ideal ⟨2, ![1, M]⟩ .f32) (r : Fin n) (c : Fin M) :
    lin n K M x w bpost (ix2 r c) = (∑ k : Fin K, x (ix2 r k) * w (ix2 k c)) + bpost (ix2 (0 : Fin 1) c) := rfl

theorem reluLin_apply (n K M : Nat) (x : FVec Ideal ⟨2, ![n, K]⟩ .f32) (w : FVec Ideal ⟨2, ![K, M]⟩ .f32)
    (bpre : FVec Ideal ⟨2, ![1, K]⟩ .f32) (bpost : FVec Ideal ⟨2, ![1, M]⟩ .f32) (r : Fin n) (c : Fin M) :
    reluLin n K M x w bpre bpost (ix2 r c)
      = (∑ k : Fin K, max (x (ix2 r k) + bpre (ix2 (0 : Fin 1) k)) 0 * w (ix2 k c)) + bpost (ix2 (0 : Fin 1) c) := rfl

end Cert.DenseSpec

end
-- ==== Proof.Region0.lean ====
import proofs.«180423_j42528766165363_1_alg».proof.Proof.Gen.KernelIdeal.Frame
import proofs.«180423_j42528766165363_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The product of a 5000 × 128 block with a 128 × 128 matrix into a zero accumulator, read at row `p`, column `q`:
    the inner product of row `p` of the left factor with column `q` of the right. -/
theorem mm0_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The body's stored value at row `p`, column `q` of its block: the inner product of row `p` of the input block with
    column `q` of the weights, plus the output bias at `q`. -/
theorem pay0_apply (x0 : Vec Ideal S5000x128 .f32) (x2 : Vec Ideal S128x128 .f32) (x5 : Vec Ideal S1x128 .f32)
    (p : Fin 5000) (q : Fin 128) :
    k0_pay1 (F := Ideal) x0 x2 x5 (ix2 p q)
      = (∑ k : Fin 128, x0 (ix2 p k) * x2 (ix2 k q)) + x5 (ix2 (0 : Fin 1) q) := by
  unfold k0_pay1
  simp only [shapeCast_self]
  rw [addf_apply, mm0_apply, broadcastTo_1b_ab_apply]
  exact congrArg (· + x5 (ix2 (0 : Fin 1) q)) (Finset.sum_congr rfl fun k _ => rfl)

/-! ## From blocks to the array -/

theorem hz0 : (![0, 0] : Fin 2 → Nat) = fun _ => 0 := funext fun a => by fin_cases a <;> rfl

/-- The windows' block indices at the 20 grid points: the input block and the output block at point `t` are row block `t`;
    the weight matrix and the output-bias row are whole at every point. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 20 :=
  (by decide +kernel : ∀ t : Fin grid0.N, _)

/-- The stored block at `(p, q)` is the dense stage of the whole arrays at row `r`, once the input block's row `p` is
    row `r` of the input array and the other two blocks are the whole arrays. -/
theorem blockval0 (X : FVec Ideal ⟨2, ![100000, 128]⟩ .f32) (Wt : FVec Ideal ⟨2, ![128, 128]⟩ .f32)
    (B2 : FVec Ideal ⟨2, ![1, 128]⟩ .f32)
    (x0 : Vec Ideal S5000x128 .f32) (x1 : Vec Ideal S128x128 .f32) (x3 : Vec Ideal S1x128 .f32)
    (p : Fin 5000) (q : Fin 128) (r : Fin 100000)
    (h0 : ∀ k : Fin 128, x0 (ix2 p k) = X (ix2 r k)) (h1 : x1 = Wt) (h3 : x3 = B2) :
    k0_pay1 (F := Ideal) x0 x1 x3 (ix2 p q) = Cert.DenseSpec.lin 100000 128 128 X Wt B2 (ix2 r q) := by
  subst h1 h3
  rw [pay0_apply, Cert.DenseSpec.lin_apply]
  refine congrArg (· + x3 (ix2 (0 : Fin 1) q)) (Finset.sum_congr rfl fun k _ => ?_)
  rw [h0 k]

section Region
variable (V : (c : Dev nD) → (b : Ref sig .tc) → Buf (Elt Ideal) ((c : Thread nD τ).loc b))

/-- Row `p` of the input block at point `t` is row `t * 5000 + p` of the input array. -/
theorem blk0_0 (c : Dev nD) (t : Fin cfg0.N) (p : Fin 5000) (k : Fin 128) (r : Fin 100000) (hr : r.val = t.val * 5000 + p.val) :
    (iblk0 V c 0 t : Vec Ideal S5000x128 .f32) (ix2 p k) = (V c main_arg0 : FVec Ideal ⟨2, ![100000, 128]⟩ .f32) (ix2 r k) := by
  obtain ⟨e00, e01, -⟩ := idx0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight window's block at every point is the whole weight matrix. -/
theorem blk0_1 (c : Dev nD) (t : Fin cfg0.N) :
    (iblk0 V c 1 t : Vec Ideal S128x128 .f32) = (V c main_arg3 : FVec Ideal ⟨2, ![128, 128]⟩ .f32) := by
  obtain ⟨-, -, e10, e11, -⟩ := idx0 t
  funext y
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The output-bias window's block at every point is the whole bias row. -/
theorem blk0_3 (c : Dev nD) (t : Fin cfg0.N) :
    (iblk0 V c 3 t : Vec Ideal S1x128 .f32) = (V c main_v36 : FVec Ideal ⟨2, ![1, 128]⟩ .f32) := by
  obtain ⟨-, -, -, -, e30, e31, -⟩ := idx0 t
  funext y
  show V c main_v36 (((cfg0.win 3).blk t).view.emb y) = V c main_v36 y
  refine congrArg (V c main_v36) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

end Region

section Region
variable (V : (c : Dev nD) → (b : Ref sig .tc) → Buf (Elt Ideal) ((c : Thread nD τ).loc b))

/-- What point `t` writes back is block `t` of the dense stage of the arrays as the region finds them. -/
theorem flushed0_eq (c : Dev nD) (t : Fin cfg0.N) :
    (dat0 (F := Ideal) V c).flushed 4 t
      = ((cfg0.win 4).blk t).view.read (Elt Ideal)
          (Cert.DenseSpec.lin 100000 128 128 (V c main_arg0) (V c main_arg3) (V c main_v36)) := by
  show (cfg0.win 4).cut (grid0.coords t) ((dat0 V c).after 4 t) = _
  rw [after0_4]
  unfold out0_4
  rw [View.canon_unit_zero hz0]
  simp only [View.ld_unit_zero (S := S5000x128) hz0, View.ld_unit_zero (S := S128x128) hz0, View.ld_unit_zero (S := S1x128) hz0]
  obtain ⟨-, -, -, -, -, -, e40, e41, hT⟩ := idx0 t
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg0.win 4).blk t).view.emb (ix2 p q) = ix2 (⟨t.val * 5000 + p.val, hr⟩ : Fin 100000) q := by
    funext a; apply Fin.ext
    match a with
    | ⟨0, _⟩ => show win0_4.index t (0 : Fin 2) * 5000 + 1 * p.val = t.val * 5000 + p.val; omega
    | ⟨1, _⟩ => show win0_4.index t (1 : Fin 2) * 128 + 1 * q.val = q.val; omega
  show k0_pay1 (F := Ideal) (iblk0 V c 0 t) (iblk0 V c 1 t) (iblk0 V c 3 t) (ix2 p q)
    = Cert.DenseSpec.lin 100000 128 128 (V c main_arg0) (V c main_arg3) (V c main_v36) (((cfg0.win 4).blk t).view.emb (ix2 p q))
  rw [hemb]
  exact blockval0 _ _ _ _ _ _ p q ⟨_, hr⟩ (fun k => blk0_0 V c t p k ⟨_, hr⟩ rfl) (blk0_1 V c t) (blk0_3 V c t)

/-- An index of the output array is in point `t`'s block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v37).slice (win0_4.rect t)).set ↔ _
  rw [View.set_slice_whole, Rect.mem_set_unit]
  exact Iff.rfl

/-- Every row of the output array is in the block of the point `row / 5000`. -/
theorem cover0 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 := ⟨⟨(i 0).val / 5000, by show (i 0).val / 5000 < grid0.N; omega⟩, rfl⟩
  obtain ⟨-, -, -, -, -, -, e40, e41, -⟩ := idx0 t
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region's last point is the dense stage of the arrays as the region finds them. -/
theorem arr0 (c : Dev nD) :
    (dat0 (F := Ideal) V c).arrAt 4 cfg0.N
      = Cert.DenseSpec.lin 100000 128 128 (V c main_arg0) (V c main_arg3) (V c main_v36) :=
  (dat0 (F := Ideal) V c).arrAt_eq_of_cover 4 _ (fun t _ => flushed0_eq V c t) cover0

end Region

end Cert.KernelIdeal.RegionValue

end
-- ==== Proof.Region1.lean ====
import proofs.«180423_j42528766165363_1_alg».proof.Proof.Gen.KernelIdeal.Frame
import proofs.«180423_j42528766165363_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The product of a 5000 × 128 block with a 128 × 128 matrix into a zero accumulator, read at row `p`, column `q`:
    the inner product of row `p` of the left factor with column `q` of the right. -/
theorem mm1_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The body's stored value at row `p`, column `q` of its block: the inner product of the biased, rectified row `p` of the
    input block with column `q` of the weights, plus the output bias at `q`. -/
theorem pay1_apply (x0 : Vec Ideal S5000x128 .f32) (x2 : Vec Ideal S1x128 .f32) (x9 : Vec Ideal S128x128 .f32)
    (x12 : Vec Ideal S1x128 .f32) (p : Fin 5000) (q : Fin 128) :
    k1_pay1 (F := Ideal) x0 x2 x9 x12 (ix2 p q)
      = (∑ k : Fin 128, max (x0 (ix2 p k) + x2 (ix2 (0 : Fin 1) k)) 0 * x9 (ix2 k q)) + x12 (ix2 (0 : Fin 1) q) := by
  unfold k1_pay1
  simp only [shapeCast_self]
  rw [addf_apply, mm1_apply, broadcastTo_1b_ab_apply]
  refine congrArg (· + x12 (ix2 (0 : Fin 1) q)) (Finset.sum_congr rfl fun k _ => ?_)
  rw [truncf_apply, truncf_apply, maximumf_apply, addf_apply, broadcastTo_1b_ab_apply, broadcast_apply]
  show max (x0 (ix2 p k) + x2 (ix2 (0 : Fin 1) k)) (Ideal.ofBits .f32 0x00000000#32) * x9 (ix2 k q) = _
  rw [Ideal.ofBits_zero_f32]

/-! ## From blocks to the array -/

theorem hz1 : (![0, 0] : Fin 2 → Nat) = fun _ => 0 := funext fun a => by fin_cases a <;> rfl

/-- The windows' block indices at the 20 grid points: the input block and the output block at point `t` are row block `t`;
    the weight matrix and the two bias rows are whole at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 ∧ t.val < 20 :=
  (by decide +kernel : ∀ t : Fin grid1.N, _)

/-- The stored block at `(p, q)` is the dense stage of the whole arrays at row `r`, once the input block's row `p` is
    row `r` of the input array and the other three blocks are the whole arrays. -/
theorem blockval1 (X : FVec Ideal ⟨2, ![100000, 128]⟩ .f32) (Wt : FVec Ideal ⟨2, ![128, 128]⟩ .f32)
    (B1 : FVec Ideal ⟨2, ![1, 128]⟩ .f32) (B2 : FVec Ideal ⟨2, ![1, 128]⟩ .f32)
    (x0 : Vec Ideal S5000x128 .f32) (x1 : Vec Ideal S128x128 .f32) (x2 : Vec Ideal S1x128 .f32) (x3 : Vec Ideal S1x128 .f32)
    (p : Fin 5000) (q : Fin 128) (r : Fin 100000)
    (h0 : ∀ k : Fin 128, x0 (ix2 p k) = X (ix2 r k)) (h1 : x1 = Wt) (h2 : x2 = B1) (h3 : x3 = B2) :
    k1_pay1 (F := Ideal) x0 x2 x1 x3 (ix2 p q) = Cert.DenseSpec.reluLin 100000 128 128 X Wt B1 B2 (ix2 r q) := by
  subst h1 h2 h3
  rw [pay1_apply, Cert.DenseSpec.reluLin_apply]
  refine congrArg (· + x3 (ix2 (0 : Fin 1) q)) (Finset.sum_congr rfl fun k _ => ?_)
  rw [h0 k]

section Region
variable (V : (c : Dev nD) → (b : Ref sig .tc) → Buf (Elt Ideal) ((c : Thread nD τ).loc b))

/-- Row `p` of the input block at point `t` is row `t * 5000 + p` of the input array. -/
theorem blk1_0 (c : Dev nD) (t : Fin cfg1.N) (p : Fin 5000) (k : Fin 128) (r : Fin 100000) (hr : r.val = t.val * 5000 + p.val) :
    (iblk1 V c 0 t : Vec Ideal S5000x128 .f32) (ix2 p k) = (V c main_v50 : FVec Ideal ⟨2, ![100000, 128]⟩ .f32) (ix2 r k) := by
  obtain ⟨e00, e01, -⟩ := idx1 t
  show V c main_v50 (((cfg1.win 0).blk t).view.emb (ix2 p k)) = V c main_v50 (ix2 r k)
  refine congrArg (V c main_v50) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The weight window's block at every point is the whole weight matrix. -/
theorem blk1_1 (c : Dev nD) (t : Fin cfg1.N) :
    (iblk1 V c 1 t : Vec Ideal S128x128 .f32) = (V c main_arg5 : FVec Ideal ⟨2, ![128, 128]⟩ .f32) := by
  obtain ⟨-, -, e10, e11, -⟩ := idx1 t
  funext y
  show V c main_arg5 (((cfg1.win 1).blk t).view.emb y) = V c main_arg5 y
  refine congrArg (V c main_arg5) (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- The input-bias window's block at every point is the whole bias row. -/
theorem blk1_2 (c : Dev nD) (t : Fin cfg1.N) :
    (iblk1 V c 2 t : Vec Ideal S1x128 .f32) = (V c main_v51 : FVec Ideal ⟨2, ![1, 128]⟩ .f32) := by
  obtain ⟨-, -, -, -, e20, e21, -⟩ := idx1 t
  funext y
  show V c main_v51 (((cfg1.win 2).blk t).view.emb y) = V c main_v51 y
  refine congrArg (V c main_v51) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The output-bias window's block at every point is the whole bias row. -/
theorem blk1_3 (c : Dev nD) (t : Fin cfg1.N) :
    (iblk1 V c 3 t : Vec Ideal S1x128 .f32) = (V c main_v52 : FVec Ideal ⟨2, ![1, 128]⟩ .f32) := by
  obtain ⟨-, -, -, -, -, -, e30, e31, -⟩ := idx1 t
  funext y
  show V c main_v52 (((cfg1.win 3).blk t).view.emb y) = V c main_v52 y
  refine congrArg (V c main_v52) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

end Region

section Region
variable (V : (c : Dev nD) → (b : Ref sig .tc) → Buf (Elt Ideal) ((c : Thread nD τ).loc b))

/-- What point `t` writes back is block `t` of the dense stage of the arrays as the region finds them. -/
theorem flushed1_eq (c : Dev nD) (t : Fin cfg1.N) :
    (dat1 (F := Ideal) V c).flushed 4 t
      = ((cfg1.win 4).blk t).view.read (Elt Ideal)
          (Cert.DenseSpec.reluLin 100000 128 128 (V c main_v50) (V c main_arg5) (V c main_v51) (V c main_v52)) := by
  show (cfg1.win 4).cut (grid1.coords t) ((dat1 V c).after 4 t) = _
  rw [after1_4]
  unfold out1_4
  rw [View.canon_unit_zero hz1]
  simp only [View.ld_unit_zero (S := S5000x128) hz1, View.ld_unit_zero (S := S128x128) hz1, View.ld_unit_zero (S := S1x128) hz1]
  obtain ⟨-, -, -, -, -, -, -, -, e40, e41, hT⟩ := idx1 t
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg1.win 4).blk t).view.emb (ix2 p q) = ix2 (⟨t.val * 5000 + p.val, hr⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  show k1_pay1 (F := Ideal) (iblk1 V c 0 t) (iblk1 V c 2 t) (iblk1 V c 1 t) (iblk1 V c 3 t) (ix2 p q)
    = Cert.DenseSpec.reluLin 100000 128 128 (V c main_v50) (V c main_arg5) (V c main_v51) (V c main_v52) (((cfg1.win 4).blk t).view.emb (ix2 p q))
  rw [hemb]
  exact blockval1 _ _ _ _ _ _ _ _ p q ⟨_, hr⟩ (fun k => blk1_0 V c t p k ⟨_, hr⟩ rfl) (blk1_1 V c t) (blk1_2 V c t) (blk1_3 V c t)

/-- An index of the output array is in point `t`'s block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v53).slice (win1_4.rect t)).set ↔ _
  rw [View.set_slice_whole, Rect.mem_set_unit]
  exact Iff.rfl

/-- Every row of the output array is in the block of the point `row / 5000`. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 := ⟨⟨(i 0).val / 5000, by show (i 0).val / 5000 < grid1.N; omega⟩, rfl⟩
  obtain ⟨-, -, -, -, -, -, -, -, e40, e41, -⟩ := idx1 t
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The output array after the region's last point is the dense stage of the arrays as the region finds them. -/
theorem arr1 (c : Dev nD) :
    (dat1 (F := Ideal) V c).arrAt 4 cfg1.N
      = Cert.DenseSpec.reluLin 100000 128 128 (V c main_v50) (V c main_arg5) (V c main_v51) (V c main_v52) :=
  (dat1 (F := Ideal) V c).arrAt_eq_of_cover 4 _ (fun t _ => flushed1_eq V c t) cover1

end Region

end Cert.KernelIdeal.RegionValue

end
-- ==== Proof.Region2.lean ====
import proofs.«180423_j42528766165363_1_alg».proof.Proof.Gen.KernelIdeal.Frame
import proofs.«180423_j42528766165363_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The product of a 5000 × 128 block with a 128 × 128 matrix into a zero accumulator, read at row `p`, column `q`:
    the inner product of row `p` of the left factor with column `q` of the right. -/
theorem mm2_apply (a : FVec Ideal S5000x128 .bf16) (b : FVec Ideal S128x128 .bf16) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ =>
      show (dot_S5000x128_S128x128_S5000x128_1_0_0_1_n_n.lhsIdx (ix2 p q) _ 0).val = p.val
      unfold DotDims.lhsIdx
      rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
      rfl
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl (ix2 p q) _).trans hk
    | ⟨1, _⟩ =>
      show (dot_S5000x128_S128x128_S5000x128_1_0_0_1_n_n.rhsIdx (ix2 p q) _ 1).val = q.val
      unfold DotDims.rhsIdx
      rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
      rfl)
  rw [el, er]

/-- The body's stored value at row `p`, column `q` of its block: the inner product of the biased, rectified row `p` of the
    input block with column `q` of the weights, plus the output bias at `q`. -/
theorem pay2_apply (x0 : Vec Ideal S5000x128 .f32) (x2 : Vec Ideal S1x128 .f32) (x9 : Vec Ideal S128x128 .f32)
    (x12 : Vec Ideal S1x128 .f32) (p : Fin 5000) (q : Fin 128) :
    k2_pay1 (F := Ideal) x0 x2 x9 x12 (ix2 p q)
      = (∑ k : Fin 128, max (x0 (ix2 p k) + x2 (ix2 (0 : Fin 1) k)) 0 * x9 (ix2 k q)) + x12 (ix2 (0 : Fin 1) q) := by
  unfold k2_pay1
  simp only [shapeCast_self]
  rw [addf_apply, mm2_apply, broadcastTo_1b_ab_apply]
  refine congrArg (· + x12 (ix2 (0 : Fin 1) q)) (Finset.sum_congr rfl fun k _ => ?_)
  rw [truncf_apply, truncf_apply, maximumf_apply, addf_apply, broadcastTo_1b_ab_apply, broadcast_apply]
  show max (x0 (ix2 p k) + x2 (ix2 (0 : Fin 1) k)) (Ideal.ofBits .f32 0x00000000#32) * x9 (ix2 k q) = _
  rw [Ideal.ofBits_zero_f32]

/-! ## From blocks to the array -/

theorem hz2 : (![0, 0] : Fin 2 → Nat) = fun _ => 0 := funext fun a => by fin_cases a <;> rfl

/-- The windows' block indices at the 20 grid points: the input block and the output block at point `t` are row block `t`;
    the weight matrix and the two bias rows are whole at every point. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 ∧ t.val < 20 :=
  (by decide +kernel : ∀ t : Fin grid2.N, _)

/-- The stored block at `(p, q)` is the dense stage of the whole arrays at row `r`, once the input block's row `p` is
    row `r` of the input array and the other three blocks are the whole arrays. -/
theorem blockval2 (X : FVec Ideal ⟨2, ![100000, 128]⟩ .f32) (Wt : FVec Ideal ⟨2, ![128, 128]⟩ .f32)
    (B1 : FVec Ideal ⟨2, ![1, 128]⟩ .f32) (B2 : FVec Ideal ⟨2, ![1, 128]⟩ .f32)
    (x0 : Vec Ideal S5000x128 .f32) (x1 : Vec Ideal S128x128 .f32) (x2 : Vec Ideal S1x128 .f32) (x3 : Vec Ideal S1x128 .f32)
    (p : Fin 5000) (q : Fin 128) (r : Fin 100000)
    (h0 : ∀ k : Fin 128, x0 (ix2 p k) = X (ix2 r k)) (h1 : x1 = Wt) (h2 : x2 = B1) (h3 : x3 = B2) :
    k2_pay1 (F := Ideal) x0 x2 x1 x3 (ix2 p q) = Cert.DenseSpec.reluLin 100000 128 128 X Wt B1 B2 (ix2 r q) := by
  subst h1 h2 h3
  rw [pay2_apply, Cert.DenseSpec.reluLin_apply]
  refine congrArg (· + x3 (ix2 (0 : Fin 1) q)) (Finset.sum_congr rfl fun k _ => ?_)
  rw [h0 k]

section Region
variable (V : (c : Dev nD) → (b : Ref sig .tc) → Buf (Elt Ideal) ((c : Thread nD τ).loc b))

/-- Row `p` of the input block at point `t` is row `t * 5000 + p` of the input array. -/
theorem blk2_0 (c : Dev nD) (t : Fin cfg2.N) (p : Fin 5000) (k : Fin 128) (r : Fin 100000) (hr : r.val = t.val * 5000 + p.val) :
    (iblk2 V c 0 t : Vec Ideal S5000x128 .f32) (ix2 p k) = (V c main_v66 : FVec Ideal ⟨2, ![100000, 128]⟩ .f32) (ix2 r k) := by
  obtain ⟨e00, e01, -⟩ := idx2 t
  show V c main_v66 (((cfg2.win 0).blk t).view.emb (ix2 p k)) = V c main_v66 (ix2 r k)
  refine congrArg (V c main_v66) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weight window's block at every point is the whole weight matrix. -/
theorem blk2_1 (c : Dev nD) (t : Fin cfg2.N) :
    (iblk2 V c 1 t : Vec Ideal S128x128 .f32) = (V c main_arg7 : FVec Ideal ⟨2, ![128, 128]⟩ .f32) := by
  obtain ⟨-, -, e10, e11, -⟩ := idx2 t
  funext y
  show V c main_arg7 (((cfg2.win 1).blk t).view.emb y) = V c main_arg7 y
  refine congrArg (V c main_arg7) (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The input-bias window's block at every point is the whole bias row. -/
theorem blk2_2 (c : Dev nD) (t : Fin cfg2.N) :
    (iblk2 V c 2 t : Vec Ideal S1x128 .f32) = (V c main_v67 : FVec Ideal ⟨2, ![1, 128]⟩ .f32) := by
  obtain ⟨-, -, -, -, e20, e21, -⟩ := idx2 t
  funext y
  show V c main_v67 (((cfg2.win 2).blk t).view.emb y) = V c main_v67 y
  refine congrArg (V c main_v67) (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The output-bias window's block at every point is the whole bias row. -/
theorem blk2_3 (c : Dev nD) (t : Fin cfg2.N) :
    (iblk2 V c 3 t : Vec Ideal S1x128 .f32) = (V c main_v68 : FVec Ideal ⟨2, ![1, 128]⟩ .f32) := by
  obtain ⟨-, -, -, -, -, -, e30, e31, -⟩ := idx2 t
  funext y
  show V c main_v68 (((cfg2.win 3).blk t).view.emb y) = V c main_v68 y
  refine congrArg (V c main_v68) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

end Region

section Region
variable (V : (c : Dev nD) → (b : Ref sig .tc) → Buf (Elt Ideal) ((c : Thread nD τ).loc b))

/-- What point `t` writes back is block `t` of the dense stage of the arrays as the region finds them. -/
theorem flushed2_eq (c : Dev nD) (t : Fin cfg2.N) :
    (dat2 (F := Ideal) V c).flushed 4 t
      = ((cfg2.win 4).blk t).view.read (Elt Ideal)
          (Cert.DenseSpec.reluLin 100000 128 128 (V c main_v66) (V c main_arg7) (V c main_v67) (V c main_v68)) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128x128) hz2, View.ld_unit_zero (S := S1x128) hz2]
  obtain ⟨-, -, -, -, -, -, -, -, e40, e41, hT⟩ := idx2 t
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg2.win 4).blk t).view.emb (ix2 p q) = ix2 (⟨t.val * 5000 + p.val, hr⟩ : Fin 100000) q := by
    funext a; apply Fin.ext
    match a with
    | ⟨0, _⟩ => show win2_4.index t (0 : Fin 2) * 5000 + 1 * p.val = t.val * 5000 + p.val; omega
    | ⟨1, _⟩ => show win2_4.index t (1 : Fin 2) * 128 + 1 * q.val = q.val; omega
  show k2_pay1 (F := Ideal) (iblk2 V c 0 t) (iblk2 V c 2 t) (iblk2 V c 1 t) (iblk2 V c 3 t) (ix2 p q)
    = Cert.DenseSpec.reluLin 100000 128 128 (V c main_v66) (V c main_arg7) (V c main_v67) (V c main_v68) (((cfg2.win 4).blk t).view.emb (ix2 p q))
  rw [hemb]
  exact blockval2 _ _ _ _ _ _ _ _ p q ⟨_, hr⟩ (fun k => blk2_0 V c t p k ⟨_, hr⟩ rfl) (blk2_1 V c t) (blk2_2 V c t) (blk2_3 V c t)

/-- An index of the output array is in point `t`'s block iff each coordinate is in the block's range on its axis. -/
theorem mem_blk2 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v69).slice (win2_4.rect t)).set ↔ _
  rw [View.set_slice_whole, Rect.mem_set_unit]
  exact Iff.rfl

/-- Every row of the output array is in the block of the point `row / 5000`. -/
theorem cover2 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 := ⟨⟨(i 0).val / 5000, by show (i 0).val / 5000 < grid2.N; omega⟩, rfl⟩
  obtain ⟨-, -, -, -, -, -, -, -, e40, e41, -⟩ := idx2 t
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the region's last point is the dense stage of the arrays as the region finds them. -/
theorem arr2 (c : Dev nD) :
    (dat2 (F := Ideal) V c).arrAt 4 cfg2.N
      = Cert.DenseSpec.reluLin 100000 128 128 (V c main_v66) (V c main_arg7) (V c main_v67) (V c main_v68) :=
  (dat2 (F := Ideal) V c).arrAt_eq_of_cover 4 _ (fun t _ => flushed2_eq V c t) cover2

end Region

end Cert.KernelIdeal.RegionValue

end
-- ==== Proof.Region3.lean ====
import proofs.«180423_j42528766165363_1_alg».proof.Proof.Gen.KernelIdeal.Frame
import proofs.«180423_j42528766165363_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The product of a 5000 × 128 block with a 128 × 256 matrix into a zero accumulator, read at row `p`, column `q`:
    the inner product of row `p` of the left factor with column `q` of the right. -/
theorem mm3_apply (a : FVec Ideal S5000x128 .bf16) (b : FVec Ideal S128x256 .bf16) (p : Fin 5000) (q : Fin 256) :
    matmul dot_S5000x128_S128x256_S5000x256_1_0_0_1_n_n none a b (constant (F := Ideal) S5000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun ax => Fin.ext (by
    match ax with
    | ⟨0, _⟩ =>
      show (dot_S5000x128_S128x256_S5000x256_1_0_0_1_n_n.lhsIdx (ix2 p q) _ 0).val = p.val
      unfold DotDims.lhsIdx
      rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
      rfl
    | ⟨1, _⟩ => exact (dot_S5000x128_S128x256_S5000x256_1_0_0_1_n_n.lhsIdx_val_of_single rfl (ix2 p q) _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun ax => Fin.ext (by
    match ax with
    | ⟨0, _⟩ => exact (dot_S5000x128_S128x256_S5000x256_1_0_0_1_n_n.rhsIdx_val_of_single rfl (ix2 p q) _).trans hk
    | ⟨1, _⟩ =>
      show (dot_S5000x128_S128x256_S5000x256_1_0_0_1_n_n.rhsIdx (ix2 p q) _ 1).val = q.val
      unfold DotDims.rhsIdx
      rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
      rfl)
  rw [el, er]

/-- The body's stored value at row `p`, column `q` of its block: the inner product of the biased, rectified row `p` of the
    input block with column `q` of the weights, plus the output bias at `q`. -/
theorem pay3_apply (x0 : Vec Ideal S5000x128 .f32) (x2 : Vec Ideal S1x128 .f32) (x9 : Vec Ideal S128x256 .f32)
    (x12 : Vec Ideal S1x256 .f32) (p : Fin 5000) (q : Fin 256) :
    k3_pay1 (F := Ideal) x0 x2 x9 x12 (ix2 p q)
      = (∑ k : Fin 128, max (x0 (ix2 p k) + x2 (ix2 (0 : Fin 1) k)) 0 * x9 (ix2 k q)) + x12 (ix2 (0 : Fin 1) q) := by
  unfold k3_pay1
  simp only [shapeCast_self]
  rw [addf_apply, mm3_apply, broadcastTo_1b_ab_apply]
  refine congrArg (· + x12 (ix2 (0 : Fin 1) q)) (Finset.sum_congr rfl fun k _ => ?_)
  rw [truncf_apply, truncf_apply, maximumf_apply, addf_apply, broadcastTo_1b_ab_apply, broadcast_apply]
  show max (x0 (ix2 p k) + x2 (ix2 (0 : Fin 1) k)) (Ideal.ofBits .f32 0x00000000#32) * x9 (ix2 k q) = _
  rw [Ideal.ofBits_zero_f32]

/-! ## From blocks to the array -/

theorem hz3 : (![0, 0] : Fin 2 → Nat) = fun _ => 0 := funext fun a => by fin_cases a <;> rfl

/-- The windows' block indices at the 20 grid points: the input block and the output block at point `t` are row block `t`;
    the weight matrix and the two bias rows are whole at every point. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 ∧ t.val < 20 :=
  (by decide +kernel : ∀ t : Fin grid3.N, _)

/-- The stored block at `(p, q)` is the dense stage of the whole arrays at row `r`, once the input block's row `p` is
    row `r` of the input array and the other three blocks are the whole arrays. -/
theorem blockval3 (X : FVec Ideal ⟨2, ![100000, 128]⟩ .f32) (Wt : FVec Ideal ⟨2, ![128, 256]⟩ .f32)
    (B1 : FVec Ideal ⟨2, ![1, 128]⟩ .f32) (B2 : FVec Ideal ⟨2, ![1, 256]⟩ .f32)
    (x0 : Vec Ideal S5000x128 .f32) (x1 : Vec Ideal S128x256 .f32) (x2 : Vec Ideal S1x128 .f32) (x3 : Vec Ideal S1x256 .f32)
    (p : Fin 5000) (q : Fin 256) (r : Fin 100000)
    (h0 : ∀ k : Fin 128, x0 (ix2 p k) = X (ix2 r k)) (h1 : x1 = Wt) (h2 : x2 = B1) (h3 : x3 = B2) :
    k3_pay1 (F := Ideal) x0 x2 x1 x3 (ix2 p q) = Cert.DenseSpec.reluLin 100000 128 256 X Wt B1 B2 (ix2 r q) := by
  subst h1 h2 h3
  rw [pay3_apply, Cert.DenseSpec.reluLin_apply]
  refine congrArg (· + x3 (ix2 (0 : Fin 1) q)) (Finset.sum_congr rfl fun k _ => ?_)
  rw [h0 k]

section Region
variable (V : (c : Dev nD) → (b : Ref sig .tc) → Buf (Elt Ideal) ((c : Thread nD τ).loc b))

/-- Row `p` of the input block at point `t` is row `t * 5000 + p` of the input array. -/
theorem blk3_0 (c : Dev nD) (t : Fin cfg3.N) (p : Fin 5000) (k : Fin 128) (r : Fin 100000) (hr : r.val = t.val * 5000 + p.val) :
    (iblk3 V c 0 t : Vec Ideal S5000x128 .f32) (ix2 p k) = (V c main_v82 : FVec Ideal ⟨2, ![100000, 128]⟩ .f32) (ix2 r k) := by
  obtain ⟨e00, e01, -⟩ := idx3 t
  show V c main_v82 (((cfg3.win 0).blk t).view.emb (ix2 p k)) = V c main_v82 (ix2 r k)
  refine congrArg (V c main_v82) (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The weight window's block at every point is the whole weight matrix. -/
theorem blk3_1 (c : Dev nD) (t : Fin cfg3.N) :
    (iblk3 V c 1 t : Vec Ideal S128x256 .f32) = (V c main_arg9 : FVec Ideal ⟨2, ![128, 256]⟩ .f32) := by
  obtain ⟨-, -, e10, e11, -⟩ := idx3 t
  funext y
  show V c main_arg9 (((cfg3.win 1).blk t).view.emb y) = V c main_arg9 y
  refine congrArg (V c main_arg9) (funext fun a => Fin.ext ?_)
  match a with
  | ⟨0, _⟩ => show win3_1.index t (0 : Fin 2) * 128 + 1 * (y 0).val = (y 0).val; omega
  | ⟨1, _⟩ => show win3_1.index t (1 : Fin 2) * 256 + 1 * (y 1).val = (y 1).val; omega

/-- The input-bias window's block at every point is the whole bias row. -/
theorem blk3_2 (c : Dev nD) (t : Fin cfg3.N) :
    (iblk3 V c 2 t : Vec Ideal S1x128 .f32) = (V c main_v83 : FVec Ideal ⟨2, ![1, 128]⟩ .f32) := by
  obtain ⟨-, -, -, -, e20, e21, -⟩ := idx3 t
  funext y
  show V c main_v83 (((cfg3.win 2).blk t).view.emb y) = V c main_v83 y
  refine congrArg (V c main_v83) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The output-bias window's block at every point is the whole bias row. -/
theorem blk3_3 (c : Dev nD) (t : Fin cfg3.N) :
    (iblk3 V c 3 t : Vec Ideal S1x256 .f32) = (V c main_v84 : FVec Ideal ⟨2, ![1, 256]⟩ .f32) := by
  obtain ⟨-, -, -, -, -, -, e30, e31, -⟩ := idx3 t
  funext y
  show V c main_v84 (((cfg3.win 3).blk t).view.emb y) = V c main_v84 y
  refine congrArg (V c main_v84) (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

end Region

section Region
variable (V : (c : Dev nD) → (b : Ref sig .tc) → Buf (Elt Ideal) ((c : Thread nD τ).loc b))

/-- What point `t` writes back is block `t` of the dense stage of the arrays as the region finds them. -/
theorem flushed3_eq (c : Dev nD) (t : Fin cfg3.N) :
    (dat3 (F := Ideal) V c).flushed 4 t
      = ((cfg3.win 4).blk t).view.read (Elt Ideal)
          (Cert.DenseSpec.reluLin 100000 128 256 (V c main_v82) (V c main_arg9) (V c main_v83) (V c main_v84)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S128x256) hz3, View.ld_unit_zero (S := S1x128) hz3, View.ld_unit_zero (S := S1x256) hz3, View.ld_unit_zero (S := S5000x256) hz3]
  obtain ⟨-, -, -, -, -, -, -, -, e40, e41, hT⟩ := idx3 t
  funext j
  obtain ⟨p, q, rfl⟩ : ∃ (p : Fin 5000) (q : Fin 256), j = ix2 p q := ⟨j 0, j 1, eq_ix2 j⟩
  have hr : t.val * 5000 + p.val < 100000 := by have := p.isLt; omega
  have hemb : ((cfg3.win 4).blk t).view.emb (ix2 p q) = ix2 (⟨t.val * 5000 + p.val, hr⟩ : Fin 100000) q := by
    funext a; apply Fin.ext
    match a with
    | ⟨0, _⟩ => show win3_4.index t (0 : Fin 2) * 5000 + 1 * p.val = t.val * 5000 + p.val; omega
    | ⟨1, _⟩ => show win3_4.index t (1 : Fin 2) * 256 + 1 * q.val = q.val; omega
  show k3_pay1 (F := Ideal) (iblk3 V c 0 t) (iblk3 V c 2 t) (iblk3 V c 1 t) (iblk3 V c 3 t) (ix2 p q)
    = Cert.DenseSpec.reluLin 100000 128 256 (V c main_v82) (V c main_arg9) (V c main_v83) (V c main_v84) (((cfg3.win 4).blk t).view.emb (ix2 p q))
  rw [hemb]
  exact blockval3 _ _ _ _ _ _ _ _ p q ⟨_, hr⟩ (fun k => blk3_0 V c t p k ⟨_, hr⟩ rfl) (blk3_1 V c t) (blk3_2 V c t) (blk3_3 V c t)

/-- An index of the output array is in point `t`'s block iff each coordinate is in the block's range on its axis. -/
theorem mem_blk3 (t : Fin cfg3.N) (i : S100000x256.Idx) :
    i ∈ ((cfg3.win 4).blk t).view.set ↔ ∀ a : Fin 2, win3_4.index t a * S5000x256.size a ≤ (i a).val ∧ (i a).val < win3_4.index t a * S5000x256.size a + S5000x256.size a := by
  show i ∈ ((View.whole main_v85).slice (win3_4.rect t)).set ↔ _
  rw [View.set_slice_whole, Rect.mem_set_unit]
  exact Iff.rfl

/-- Every row of the output array is in the block of the point `row / 5000`. -/
theorem cover3 (i : S100000x256.Idx) : ∃ t : Fin cfg3.N, (cfg3.win 4).flush t = true ∧ i ∈ ((cfg3.win 4).blk t).view.set := by
  have hi0 : (i 0).val < 100000 := (i 0).isLt
  have hi1 : (i 1).val < 256 := (i 1).isLt
  have hN : grid3.N = 20 := N_3
  obtain ⟨t, ht⟩ : ∃ t : Fin cfg3.N, t.val = (i 0).val / 5000 := ⟨⟨(i 0).val / 5000, by show (i 0).val / 5000 < grid3.N; omega⟩, rfl⟩
  obtain ⟨-, -, -, -, -, -, -, -, e40, e41, -⟩ := idx3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 256 ≤ (i 1).val ∧ (i 1).val < win3_4.index t (1 : Fin 2) * 256 + 256; omega

/-- The output array after the region's last point is the dense stage of the arrays as the region finds them. -/
theorem arr3 (c : Dev nD) :
    (dat3 (F := Ideal) V c).arrAt 4 cfg3.N
      = Cert.DenseSpec.reluLin 100000 128 256 (V c main_v82) (V c main_arg9) (V c main_v83) (V c main_v84) :=
  (dat3 (F := Ideal) V c).arrAt_eq_of_cover 4 _ (fun t _ => flushed3_eq V c t) cover3

end Region

end Cert.KernelIdeal.RegionValue

end
-- ==== Proof.Region4.lean ====
import proofs.«180423_j42528766165363_1_alg».proof.Proof.Gen.KernelIdeal.Frame
import proofs.«180423_j42528766165363_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at an index -/

/-- The product of a 5000 × 256 block with a 256 × 40 matrix into a zero accumulator, read at row `p`, column `q`:
    the inner product of row `p` of the left factor with column `q` of the right. -/
theorem mm4_apply (a : FVec Ideal S5000x256 .bf16) (b : FVec Ideal S256x40 .bf16) (p : Fin 5000) (q : Fin 40) :
    matmul dot_S5000x256_S256x40_S5000x40_1_0_0_1_n_n none a b (constant (F := Ideal) S5000x40 .f32 0x00000000#32) (ix2 p q)
      = ∑ k : Fin 256, a (ix2 p k) * b (ix2 k q) := by
  simp only [matmul]
  rw [Ideal.matmul_constant_zero_apply, ← Equiv.sum_comp (ValueIdx.contrEquiv1 dot_S5000x256_S256x40_S5000x40_1_0_0_1_n_n 256 rfl rfl).symm]
  refine Finset.sum_congr rfl fun k _ => ?_
  have hk := ValueIdx.contrEquiv1_symm_val dot_S5000x256_S256x40_S5000x40_1_0_0_1_n_n 256 rfl rfl k
  have el : dot_S5000x256_S256x40_S5000x40_1_0_0_1_n_n.lhsIdx (ix2 p q) ((ValueIdx.contrEquiv1 dot_S5000x256_S256x40_S5000x40_1_0_0_1_n_n 256 rfl rfl).symm k) = ix2 p k := funext fun ax => Fin.ext (by
    match ax with
    | ⟨0, _⟩ =>
      show (dot_S5000x256_S256x40_S5000x40_1_0_0_1_n_n.lhsIdx (ix2 p q) _ 0).val = p.val
      unfold DotDims.lhsIdx
      rw [dif_neg (show ¬(0 : Fin S5000x256.rank) ∈ dot_S5000x256_S256x40_S5000x40_1_0_0_1_n_n.lhsBatch by decide), dif_pos (show (0 : Fin S5000x256.rank) ∈ dot_S5000x256_S256x40_S5000x40_1_0_0_1_n_n.lhsNonContracting by decide)]
      rfl
    | ⟨1, _⟩ => exact (dot_S5000x256_S256x40_S5000x40_1_0_0_1_n_n.lhsIdx_val_of_single rfl (ix2 p q) _).trans hk)
  have er : dot_S5000x256_S256x40_S5000x40_1_0_0_1_n_n.rhsIdx (ix2 p q) ((ValueIdx.contrEquiv1 dot_S5000x256_S256x40_S5000x40_1_0_0_1_n_n 256 rfl rfl).symm k) = ix2 k q := funext fun ax => Fin.ext (by
    match ax with
    | ⟨0, _⟩ => exact (dot_S5000x256_S256x40_S5000x40_1_0_0_1_n_n.rhsIdx_val_of_single rfl (ix2 p q) _).trans hk
    | ⟨1, _⟩ =>
      show (dot_S5000x256_S256x40_S5000x40_1_0_0_1_n_n.rhsIdx (ix2 p q) _ 1).val = q.val
      unfold DotDims.rhsIdx
      rw [dif_neg (show ¬(1 : Fin S256x40.rank) ∈ dot_S5000x256_S256x40_S5000x40_1_0_0_1_n_n.rhsBatch by decide), dif_pos (show (1 : Fin S256x40.rank) ∈ dot_S5000x256_S256x40_S5000x40_1_0_0_1_n_n.rhsNonContracting by decide)]
      rfl)
  rw [el, er]

/-- The body's stored value at row `p`, column `q` of its block: the inner product of the biased, rectified row `p` of the
    input block with column `q` of the weights, plus the output bias at `q`. -/
theorem pay4_apply (x0 : Vec Ideal S5000x256 .f32) (x2 : Vec Ideal S1x256 .f32) (x9 : Vec Ideal S256x40 .f32)
    (x12 : Vec Ideal S1x40 .f32) (p : Fin 5000) (q : Fin 40) :
    k4_pay1 (F := Ideal) x0 x2 x9 x12 (ix2 p q)
      = (∑ k : Fin 256, max (x0 (ix2 p k) + x2 (ix2 (0 : Fin 1) k)) 0 * x9 (ix2 k q)) + x12 (ix2 (0 : Fin 1) q) := by
  unfold k4_pay1
  simp only [shapeCast_self]
  rw [addf_apply, mm4_apply, broadcastTo_1b_ab_apply]
  refine congrArg (· + x12 (ix2 (0 : Fin 1) q)) (Finset.sum_congr rfl fun k _ => ?_)
  rw [truncf_apply, truncf_apply, maximumf_apply, addf_apply, broadcastTo_1b_ab_apply, broadcast_apply]
  show max (x0 (ix2 p k) + x2 (ix2 (0 : Fin 1) k)) (Ideal.ofBits .f32 0x00000000#32) * x9 (ix2 k q) = _
  rw [Ideal.ofBits_zero_f32]

/-! ## From blocks to the array -/

theorem hz4 : (![0, 0] : Fin 2 → Nat) = fun _ => 0 := funext fun a => by fin_cases a <;> rfl

/-- The windows' block indices at the 20 grid points: the input block and the output block at point `t` are row block `t`;
    the weight matrix and the two bias rows are whole at every point. -/
theorem idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 ∧ t.val < 20 :=
  (by decide +kernel : ∀ t : Fin grid4.N, _)

/-- The stored block at `(p, q)` is the dense stage of the whole arrays at row `r`, once the input block's row `p` is
    row `r` of the input array and the other three blocks are the whole arrays. -/
theorem blockval4 (X : FVec Ideal ⟨2, ![100000, 256]⟩ .f32) (Wt : FVec Ideal ⟨2, ![256, 40]⟩ .f32)
    (B1 : FVec Ideal ⟨2, ![1, 256]⟩ .f32) (B2 : FVec Ideal ⟨2, ![1, 40]⟩ .f32)
    (x0 : Vec Ideal S5000x256 .f32) (x1 : Vec Ideal S256x40 .f32) (x2 : Vec Ideal S1x256 .f32) (x3 : Vec Ideal S1x40 .f32)
    (p : Fin 5000) (q : Fin 40) (r : Fin 100000)
    (h0 : ∀ k : Fin 256, x0 (ix2 p k) = X (ix2 r k)) (h1 : x1 = Wt) (h2 : x2 = B1) (h3 : x3 = B2) :
    k4_pay1 (F := Ideal) x0 x2 x1 x3 (ix2 p q) = Cert.DenseSpec.reluLin 100000 256 40 X Wt B1 B2 (ix2 r q) := by
  subst h1 h2 h3
  rw [pay4_apply, Cert.DenseSpec.reluLin_apply]
  refine congrArg (· + x3 (ix2 (0 : Fin 1) q)) (Finset.sum_congr rfl fun k _ => ?_)
  rw [h0 k]

section Region
variable (V : (c : Dev nD) → (b : Ref sig .tc) → Buf (Elt Ideal) ((c : Thread nD τ).loc b))

/-- Row `p` of the input block at point `t` is row `t * 5000 + p` of the input array. -/
theorem blk4_0 (c : Dev nD) (t : Fin cfg4.N) (p : Fin 5000) (k : Fin 256) (r : Fin 100000) (hr : r.val = t.val * 5000 + p.val) :
    (iblk4 V c 0 t : Vec Ideal S5000x256 .f32) (ix2 p k) = (V c main_v85 : FVec Ideal ⟨2, ![100000, 256]⟩ .f32) (ix2 r k) := by
  obtain ⟨e00, e01, -⟩ := idx4 t
  show V c main_v85 (((cfg4.win 0).blk t).view.emb (ix2 p k)) = V c main_v85 (ix2 r k)
  refine congrArg (V c main_v85) (funext fun a => Fin.ext ?_)
  match a with
  | ⟨0, _⟩ => show win4_0.index t (0 : Fin 2) * 5000 + 1 * p.val = r.val; omega
  | ⟨1, _⟩ => show win4_0.index t (1 : Fin 2) * 256 + 1 * k.val = k.val; omega

/-- The weight window's block at every point is the whole weight matrix. -/
theorem blk4_1 (c : Dev nD) (t : Fin cfg4.N) :
    (iblk4 V c 1 t : Vec Ideal S256x40 .f32) = (V c main_arg11 : FVec Ideal ⟨2, ![256, 40]⟩ .f32) := by
  obtain ⟨-, -, e10, e11, -⟩ := idx4 t
  funext y
  show V c main_arg11 (((cfg4.win 1).blk t).view.emb y) = V c main_arg11 y
  refine congrArg (V c main_arg11) (funext fun a => Fin.ext ?_)
  match a with
  | ⟨0, _⟩ => show win4_1.index t (0 : Fin 2) * 256 + 1 * (y 0).val = (y 0).val; omega
  | ⟨1, _⟩ => show win4_1.index t (1 : Fin 2) * 40 + 1 * (y 1).val = (y 1).val; omega

/-- The input-bias window's block at every point is the whole bias row. -/
theorem blk4_2 (c : Dev nD) (t : Fin cfg4.N) :
    (iblk4 V c 2 t : Vec Ideal S1x256 .f32) = (V c main_v86 : FVec Ideal ⟨2, ![1, 256]⟩ .f32) := by
  obtain ⟨-, -, -, -, e20, e21, -⟩ := idx4 t
  funext y
  show V c main_v86 (((cfg4.win 2).blk t).view.emb y) = V c main_v86 y
  refine congrArg (V c main_v86) (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega

/-- The output-bias window's block at every point is the whole bias row. -/
theorem blk4_3 (c : Dev nD) (t : Fin cfg4.N) :
    (iblk4 V c 3 t : Vec Ideal S1x40 .f32) = (V c main_v87 : FVec Ideal ⟨2, ![1, 40]⟩ .f32) := by
  obtain ⟨-, -, -, -, -, -, e30, e31, -⟩ := idx4 t
  funext y
  show V c main_v87 (((cfg4.win 3).blk t).view.emb y) = V c main_v87 y
  refine congrArg (V c main_v87) (funext fun a => Fin.ext ?_)
  match a with
  | ⟨0, _⟩ => show win4_3.index t (0 : Fin 2) * 1 + 1 * (y 0).val = (y 0).val; omega
  | ⟨1, _⟩ => show win4_3.index t (1 : Fin 2) * 40 + 1 * (y 1).val = (y 1).val; omega

end Region

section Region
variable (V : (c : Dev nD) → (b : Ref sig .tc) → Buf (Elt Ideal) ((c : Thread nD τ).loc b))

/-- What point `t` writes back is block `t` of the dense stage of the arrays as the region finds them. -/
theorem flushed4_eq (c : Dev nD) (t : Fin cfg4.N) :
    (dat4 (F := Ideal) V c).flushed 4 t
      = ((cfg4.win 4).blk t).view.read (Elt Ideal)
          (Cert.DenseSpec.reluLin 100000 256 40 (V c main_v85) (V c main_arg11) (V c main_v86) (V c main_v87)) := by
  show (cfg4.win 4).cut (grid4.coords t) ((dat4 V c).after 4 t) = _
  rw [after4_4]
  unfold out4_4
  rw [View.canon_unit_zero hz4]
  simp only [View.ld_unit_zero (S := S5000x256) hz4, View.ld_unit_zero (S := S256x40) hz4, View.ld_unit_zero (S := S1x256) hz4, View.ld_unit_zero (S := S1x40) hz4, View.ld_unit_zero (S := S5000x40) hz4]
  obtain ⟨-, -, -, -, -, -, -, -, e40, e41, hT⟩ := idx4 t
  funext j
  obtain ⟨p, q, rfl⟩ : ∃ (p : Fin 5000) (q : Fin 40), j = ix2 p q := ⟨j 0, j 1, eq_ix2 j⟩
  have hr : t.val * 5000 + p.val < 100000 := by have := p.isLt; omega
  have hemb : ((cfg4.win 4).blk t).view.emb (ix2 p q) = ix2 (⟨t.val * 5000 + p.val, hr⟩ : Fin 100000) q := by
    funext a; apply Fin.ext
    match a with
    | ⟨0, _⟩ => show win4_4.index t (0 : Fin 2) * 5000 + 1 * p.val = t.val * 5000 + p.val; omega
    | ⟨1, _⟩ => show win4_4.index t (1 : Fin 2) * 40 + 1 * q.val = q.val; omega
  show k4_pay1 (F := Ideal) (iblk4 V c 0 t) (iblk4 V c 2 t) (iblk4 V c 1 t) (iblk4 V c 3 t) (ix2 p q)
    = Cert.DenseSpec.reluLin 100000 256 40 (V c main_v85) (V c main_arg11) (V c main_v86) (V c main_v87) (((cfg4.win 4).blk t).view.emb (ix2 p q))
  rw [hemb]
  exact blockval4 _ _ _ _ _ _ _ _ p q ⟨_, hr⟩ (fun k => blk4_0 V c t p k ⟨_, hr⟩ rfl) (blk4_1 V c t) (blk4_2 V c t) (blk4_3 V c t)

/-- An index of the output array is in point `t`'s block iff each coordinate is in the block's range on its axis. -/
theorem mem_blk4 (t : Fin cfg4.N) (i : S100000x40.Idx) :
    i ∈ ((cfg4.win 4).blk t).view.set ↔ ∀ a : Fin 2, win4_4.index t a * S5000x40.size a ≤ (i a).val ∧ (i a).val < win4_4.index t a * S5000x40.size a + S5000x40.size a := by
  show i ∈ ((View.whole main_v88).slice (win4_4.rect t)).set ↔ _
  rw [View.set_slice_whole, Rect.mem_set_unit]
  exact Iff.rfl

/-- Every row of the output array is in the block of the point `row / 5000`. -/
theorem cover4 (i : S100000x40.Idx) : ∃ t : Fin cfg4.N, (cfg4.win 4).flush t = true ∧ i ∈ ((cfg4.win 4).blk t).view.set := by
  have hi0 : (i 0).val < 100000 := (i 0).isLt
  have hi1 : (i 1).val < 40 := (i 1).isLt
  have hN : grid4.N = 20 := N_4
  obtain ⟨t, ht⟩ : ∃ t : Fin cfg4.N, t.val = (i 0).val / 5000 := ⟨⟨(i 0).val / 5000, by show (i 0).val / 5000 < grid4.N; omega⟩, rfl⟩
  obtain ⟨-, -, -, -, -, -, -, -, e40, e41, -⟩ := idx4 t
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 40 ≤ (i 1).val ∧ (i 1).val < win4_4.index t (1 : Fin 2) * 40 + 40; omega

/-- The output array after the region's last point is the dense stage of the arrays as the region finds them. -/
theorem arr4 (c : Dev nD) :
    (dat4 (F := Ideal) V c).arrAt 4 cfg4.N
      = Cert.DenseSpec.reluLin 100000 256 40 (V c main_v85) (V c main_arg11) (V c main_v86) (V c main_v87) :=
  (dat4 (F := Ideal) V c).arrAt_eq_of_cover 4 _ (fun t _ => flushed4_eq V c t) cover4

end Region

end Cert.KernelIdeal.RegionValue

end
-- ==== Proof.KernelStages.lean ====
/-
  The kernel program's result, stage by stage, as the dense stages of the specification.

  Each tiled dense stage leaves in its output array the specification's dense stage of the four arrays it reads
  (the input features, the weight matrix, a pre-bias row and a post-bias row); each stretch of host operations
  between two stages is the aggregation step applied to the previous stage's output, together with the reshapes
  that lay the next bias vector — or a zero vector — out as one row. Read from the launch to the return, the
  result array is therefore a nest of five dense stages and three aggregation steps over the argument arrays,
  with every bias row determined entry by entry: column k of a reshaped bias is entry k of the bias, and every
  column of a reshaped zero vector is zero.
-/
import proofs.«180423_j42528766165363_1_alg».proof.Proof.KernelWalk
import proofs.«180423_j42528766165363_1_alg».proof.Proof.LibRows
import proofs.«180423_j42528766165363_1_alg».proof.Proof.Region0
import proofs.«180423_j42528766165363_1_alg».proof.Proof.Region1
import proofs.«180423_j42528766165363_1_alg».proof.Proof.Region2
import proofs.«180423_j42528766165363_1_alg».proof.Proof.Region3
import proofs.«180423_j42528766165363_1_alg».proof.Proof.Region4

set_option maxRecDepth 16384

noncomputable section

namespace Cert.KernelIdeal.Stages

open Cert.KernelIdeal Cert.KernelIdeal.Gen Cert.KernelIdeal.Walk Cert.KernelIdeal.RegionValue
open Idealize.ShloMosaic Idealize.ShloMosaic.TcCoe Idealize.ShloMosaic.Tactic Idealize.ShloMosaic.StableHlo Idealize.ShloMosaic.ValueIdx
open Idealize.SL.Sem
open Idealize.ShloMosaic.Pipeline (Dat Cfg Window)
open Cert.DenseSpec Cert.ReferenceIdeal.Aggregate

variable (m : (ℓ : Loc nD τ sig) → Buf (Elt Ideal) ℓ) (ρ : Dev nD → PrngReg) (c : Dev nD)

/-! ## Names -/

/-- The edges' target rows. -/
def row : (⟨Cert.ReferenceIdeal.S900000, .i32⟩ : BufTy).Contents (Elt Ideal) := Cert.ReferenceIdeal.Read.val_main_v3 (F := Ideal) (m ((c : Thread nD τ).loc main_arg1))
/-- The edges' source rows. -/
def col : (⟨Cert.ReferenceIdeal.S900000, .i32⟩ : BufTy).Contents (Elt Ideal) := Cert.ReferenceIdeal.Read.val_main_v6 (F := Ideal) (m ((c : Thread nD τ).loc main_arg1))
/-- The edges' normalisation weights. -/
def norm : (⟨Cert.ReferenceIdeal.S900000, .f32⟩ : BufTy).Contents (Elt Ideal) := Cert.ReferenceIdeal.Read.val_main_v31 (F := Ideal) (m ((c : Thread nD τ).loc main_arg1)) (m ((c : Thread nD τ).loc main_arg2))

/-- The first stage's post-bias row, as the stage finds it. -/
def Z0 : FVec Ideal ⟨2, ![1, 128]⟩ .f32 := W3 m ρ c (Proc.devRef .tc main_v36)
/-- Stage 2's pre-bias row, as the stage finds it. -/
def B1 : FVec Ideal ⟨2, ![1, 128]⟩ .f32 := W5 m ρ c (Proc.devRef .tc main_v51)
/-- Stage 2's post-bias row, as the stage finds it. -/
def Z1 : FVec Ideal ⟨2, ![1, 128]⟩ .f32 := W5 m ρ c (Proc.devRef .tc main_v52)
/-- Stage 3's pre-bias row, as the stage finds it. -/
def B2 : FVec Ideal ⟨2, ![1, 128]⟩ .f32 := W7 m ρ c (Proc.devRef .tc main_v67)
/-- Stage 3's post-bias row, as the stage finds it. -/
def Z2 : FVec Ideal ⟨2, ![1, 128]⟩ .f32 := W7 m ρ c (Proc.devRef .tc main_v68)
/-- Stage 4's pre-bias row, as the stage finds it. -/
def B3 : FVec Ideal ⟨2, ![1, 128]⟩ .f32 := W9 m ρ c (Proc.devRef .tc main_v83)
/-- Stage 4's post-bias row, as the stage finds it. -/
def Z3 : FVec Ideal ⟨2, ![1, 256]⟩ .f32 := W9 m ρ c (Proc.devRef .tc main_v84)
/-- The last stage's pre-bias row, as the stage finds it. -/
def B4 : FVec Ideal ⟨2, ![1, 256]⟩ .f32 := W11 m ρ c (Proc.devRef .tc main_v86)
/-- The last stage's post-bias row, as the stage finds it. -/
def B4' : FVec Ideal ⟨2, ![1, 40]⟩ .f32 := W11 m ρ c (Proc.devRef .tc main_v87)

/-- The first product. -/
def K0 : FVec Ideal ⟨2, ![100000, 128]⟩ .f32 := lin 100000 128 128 (m ((c : Thread nD τ).loc main_arg0)) (m ((c : Thread nD τ).loc main_arg3)) (Z0 m ρ c)
/-- The first aggregation. -/
def A0 : FVec Ideal ⟨2, ![100000, 128]⟩ .f32 := aggF (F := Ideal) (row m c) (col m c) (norm m c) (K0 m ρ c)
/-- The second product. -/
def K1 : FVec Ideal ⟨2, ![100000, 128]⟩ .f32 := reluLin 100000 128 128 (A0 m ρ c) (m ((c : Thread nD τ).loc main_arg5)) (B1 m ρ c) (Z1 m ρ c)
/-- The second aggregation. -/
def A1 : FVec Ideal ⟨2, ![100000, 128]⟩ .f32 := aggF (F := Ideal) (row m c) (col m c) (norm m c) (K1 m ρ c)
/-- The third product. -/
def K2 : FVec Ideal ⟨2, ![100000, 128]⟩ .f32 := reluLin 100000 128 128 (A1 m ρ c) (m ((c : Thread nD τ).loc main_arg7)) (B2 m ρ c) (Z2 m ρ c)
/-- The third aggregation. -/
def A2 : FVec Ideal ⟨2, ![100000, 128]⟩ .f32 := aggF (F := Ideal) (row m c) (col m c) (norm m c) (K2 m ρ c)
/-- The hidden layer before its bias and rectification. -/
def K3 : FVec Ideal ⟨2, ![100000, 256]⟩ .f32 := reluLin 100000 128 256 (A2 m ρ c) (m ((c : Thread nD τ).loc main_arg9)) (B3 m ρ c) (Z3 m ρ c)
/-- The logits. -/
def K4 : FVec Ideal ⟨2, ![100000, 40]⟩ .f32 := reluLin 100000 256 40 (K3 m ρ c) (m ((c : Thread nD τ).loc main_arg11)) (B4 m ρ c) (B4' m ρ c)

/-! ## The bias rows, entry by entry -/

/-- The first stage's post-bias row is zero. -/
theorem Z0_apply (q : Fin 128) : Z0 m ρ c (ix2 (0 : Fin 1) q) = 0 := by
  unfold Z0
  rw [W3_main_v36]
  exact Cert.LibRows.zero_row_apply bcast_S_S128 shapeCasts_S128_S1x128 q

/-- Stage 2's pre-bias row is its bias vector. -/
theorem B1_apply (k : Fin 128) : B1 m ρ c (ix2 (0 : Fin 1) k) = (m ((c : Thread nD τ).loc main_arg4)) (ix1 k) := by
  have e : W5 m ρ c (Proc.devRef .tc main_v51) = shapeCast S1x128 (W4 m ρ c (Proc.devRef .tc main_arg4)) shapeCasts_S128_S1x128 := by
    dsimp only [W5, hostOps1]
    after_results_simp <;> rfl
  unfold B1
  rw [e, W4_main_arg4]
  exact Cert.LibRows.row_apply _ shapeCasts_S128_S1x128 k

/-- Stage 2's post-bias row is zero. -/
theorem Z1_apply (q : Fin 128) : Z1 m ρ c (ix2 (0 : Fin 1) q) = 0 := by
  have e : W5 m ρ c (Proc.devRef .tc main_v52) = shapeCast S1x128 (W4 m ρ c (Proc.devRef .tc main_v32)) shapeCasts_S128_S1x128 := by
    dsimp only [W5, hostOps1]
    after_results_simp <;> rfl
  unfold Z1
  rw [e, W4_main_v32]
  exact Cert.LibRows.zero_row_apply bcast_S_S128 shapeCasts_S128_S1x128 q

/-- Stage 3's pre-bias row is its bias vector. -/
theorem B2_apply (k : Fin 128) : B2 m ρ c (ix2 (0 : Fin 1) k) = (m ((c : Thread nD τ).loc main_arg6)) (ix1 k) := by
  have e : W7 m ρ c (Proc.devRef .tc main_v67) = shapeCast S1x128 (W6 m ρ c (Proc.devRef .tc main_arg6)) shapeCasts_S128_S1x128 := by
    dsimp only [W7, hostOps2]
    after_results_simp <;> rfl
  unfold B2
  rw [e, W6_main_arg6]
  exact Cert.LibRows.row_apply _ shapeCasts_S128_S1x128 k

/-- Stage 3's post-bias row is zero. -/
theorem Z2_apply (q : Fin 128) : Z2 m ρ c (ix2 (0 : Fin 1) q) = 0 := by
  have e : W7 m ρ c (Proc.devRef .tc main_v68) = shapeCast S1x128 (W6 m ρ c (Proc.devRef .tc main_v32)) shapeCasts_S128_S1x128 := by
    dsimp only [W7, hostOps2]
    after_results_simp <;> rfl
  unfold Z2
  rw [e, W6_main_v32]
  exact Cert.LibRows.zero_row_apply bcast_S_S128 shapeCasts_S128_S1x128 q

/-- Stage 4's pre-bias row is its bias vector. -/
theorem B3_apply (k : Fin 128) : B3 m ρ c (ix2 (0 : Fin 1) k) = (m ((c : Thread nD τ).loc main_arg8)) (ix1 k) := by
  have e : W9 m ρ c (Proc.devRef .tc main_v83) = shapeCast S1x128 (W8 m ρ c (Proc.devRef .tc main_arg8)) shapeCasts_S128_S1x128 := by
    dsimp only [W9, hostOps3]
    after_results_simp <;> rfl
  unfold B3
  rw [e, W8_main_arg8]
  exact Cert.LibRows.row_apply _ shapeCasts_S128_S1x128 k

/-- Stage 4's post-bias row is zero. -/
theorem Z3_apply (q : Fin 256) : Z3 m ρ c (ix2 (0 : Fin 1) q) = 0 := by
  have e : W9 m ρ c (Proc.devRef .tc main_v84) = shapeCast S1x256 (W8 m ρ c (Proc.devRef .tc main_v33)) shapeCasts_S256_S1x256 := by
    dsimp only [W9, hostOps3]
    after_results_simp <;> rfl
  unfold Z3
  rw [e, W8_main_v33]
  exact Cert.LibRows.zero_row_apply bcast_S_S256 shapeCasts_S256_S1x256 q

/-- The last stage's pre-bias row is its bias vector. -/
theorem B4_apply (k : Fin 256) : B4 m ρ c (ix2 (0 : Fin 1) k) = (m ((c : Thread nD τ).loc main_arg10)) (ix1 k) := by
  have e : W11 m ρ c (Proc.devRef .tc main_v86) = shapeCast S1x256 (W10 m ρ c (Proc.devRef .tc main_arg10)) shapeCasts_S256_S1x256 := by
    dsimp only [W11, hostOps4]
    after_results_simp <;> rfl
  unfold B4
  rw [e, W10_main_arg10]
  exact Cert.LibRows.row_apply _ shapeCasts_S256_S1x256 k

/-- The last stage's post-bias row is its bias vector. -/
theorem B4'_apply (q : Fin 40) : B4' m ρ c (ix2 (0 : Fin 1) q) = (m ((c : Thread nD τ).loc main_arg12)) (ix1 q) := by
  have e : W11 m ρ c (Proc.devRef .tc main_v87) = shapeCast S1x40 (W10 m ρ c (Proc.devRef .tc main_arg12)) shapeCasts_S40_S1x40 := by
    dsimp only [W11, hostOps4]
    after_results_simp <;> rfl
  unfold B4'
  rw [e, W10_main_arg12]
  exact Cert.LibRows.row_apply _ shapeCasts_S40_S1x40 q

/-! ## The stages' outputs and the aggregations between them -/

/-- The first stage's output array. -/
theorem out0 : W4 m ρ c (Proc.devRef .tc main_v37) = K0 m ρ c := by
  refine (W4_arr m ρ c 4).trans ((arr0 (V3 m ρ) c).trans ?_)
  show lin 100000 128 128 (W3 m ρ c (Proc.devRef .tc main_arg0)) (W3 m ρ c (Proc.devRef .tc main_arg3)) (W3 m ρ c (Proc.devRef .tc main_v36)) = _
  rw [W3_main_arg0, W3_main_arg3]
  rfl

/-- The aggregation before stage 2. -/
theorem agg0 : W5 m ρ c (Proc.devRef .tc main_v50) = A0 m ρ c := by
  have e : W5 m ρ c (Proc.devRef .tc main_v50) = aggF (F := Ideal) (W4 m ρ c (Proc.devRef .tc main_v3)) (W4 m ρ c (Proc.devRef .tc main_v6)) (W4 m ρ c (Proc.devRef .tc main_v31)) (W4 m ρ c (Proc.devRef .tc main_v37)) := by
    dsimp only [W5, hostOps1]
    after_results_simp <;> rfl
  rw [e, W4_main_v3, W4_main_v6, W4_main_v31, out0]
  rfl

/-- Stage 2's output array. -/
theorem out1 : W6 m ρ c (Proc.devRef .tc main_v53) = K1 m ρ c := by
  refine (W6_arr m ρ c 4).trans ((arr1 (V5 m ρ) c).trans ?_)
  show reluLin 100000 128 128 (W5 m ρ c (Proc.devRef .tc main_v50)) (W5 m ρ c (Proc.devRef .tc main_arg5)) (W5 m ρ c (Proc.devRef .tc main_v51)) (W5 m ρ c (Proc.devRef .tc main_v52)) = _
  rw [agg0, W5_main_arg5]
  rfl

/-- The aggregation before stage 3. -/
theorem agg1 : W7 m ρ c (Proc.devRef .tc main_v66) = A1 m ρ c := by
  have e : W7 m ρ c (Proc.devRef .tc main_v66) = aggF (F := Ideal) (W6 m ρ c (Proc.devRef .tc main_v3)) (W6 m ρ c (Proc.devRef .tc main_v6)) (W6 m ρ c (Proc.devRef .tc main_v31)) (W6 m ρ c (Proc.devRef .tc main_v53)) := by
    dsimp only [W7, hostOps2]
    after_results_simp <;> rfl
  rw [e, W6_main_v3, W6_main_v6, W6_main_v31, out1]
  rfl

/-- Stage 3's output array. -/
theorem out2 : W8 m ρ c (Proc.devRef .tc main_v69) = K2 m ρ c := by
  refine (W8_arr m ρ c 4).trans ((arr2 (V7 m ρ) c).trans ?_)
  show reluLin 100000 128 128 (W7 m ρ c (Proc.devRef .tc main_v66)) (W7 m ρ c (Proc.devRef .tc main_arg7)) (W7 m ρ c (Proc.devRef .tc main_v67)) (W7 m ρ c (Proc.devRef .tc main_v68)) = _
  rw [agg1, W7_main_arg7]
  rfl

/-- The aggregation before stage 4. -/
theorem agg2 : W9 m ρ c (Proc.devRef .tc main_v82) = A2 m ρ c := by
  have e : W9 m ρ c (Proc.devRef .tc main_v82) = aggF (F := Ideal) (W8 m ρ c (Proc.devRef .tc main_v3)) (W8 m ρ c (Proc.devRef .tc main_v6)) (W8 m ρ c (Proc.devRef .tc main_v31)) (W8 m ρ c (Proc.devRef .tc main_v69)) := by
    dsimp only [W9, hostOps3]
    after_results_simp <;> rfl
  rw [e, W8_main_v3, W8_main_v6, W8_main_v31, out2]
  rfl

/-- Stage 4's output array. -/
theorem out3 : W10 m ρ c (Proc.devRef .tc main_v85) = K3 m ρ c := by
  refine (W10_arr m ρ c 4).trans ((arr3 (V9 m ρ) c).trans ?_)
  show reluLin 100000 128 256 (W9 m ρ c (Proc.devRef .tc main_v82)) (W9 m ρ c (Proc.devRef .tc main_arg9)) (W9 m ρ c (Proc.devRef .tc main_v83)) (W9 m ρ c (Proc.devRef .tc main_v84)) = _
  rw [agg2, W9_main_arg9]
  rfl

/-- The hidden layer, as the last stage finds it: the host operations before that stage do not write it. -/
theorem hidden : W11 m ρ c (Proc.devRef .tc main_v85) = K3 m ρ c :=
  (by kernel_unwritten : W11 m ρ c (Proc.devRef .tc main_v85) = W10 m ρ c (Proc.devRef .tc main_v85)).trans (out3 m ρ c)

/-- THE RESULT ARRAY at the last boundary of the run: the logits. -/
theorem out4 : W12 m ρ c (Proc.devRef .tc main_v88) = K4 m ρ c := by
  refine (W12_arr m ρ c 4).trans ((arr4 (V11 m ρ) c).trans ?_)
  show reluLin 100000 256 40 (W11 m ρ c (Proc.devRef .tc main_v85)) (W11 m ρ c (Proc.devRef .tc main_arg11)) (W11 m ρ c (Proc.devRef .tc main_v86)) (W11 m ρ c (Proc.devRef .tc main_v87)) = _
  rw [hidden, W11_main_arg11]
  rfl

end Cert.KernelIdeal.Stages

end
-- ==== Proof.RefStages.lean ====
/-
  The dense stages of the reference, one at a time, as the specification's dense stage of the previous stage's value.

  The reference computes, over the extended reals,
    v32 = x0 · W0,                        v50 = max (agg v32 + b0) 0 · W1,
    v68 = max (agg v50 + b1) 0 · W2,      v86 = max (agg v68 + b2) 0 · Wm0,
    v94 = max (v86 + bm0) 0 · Wm1 + bm1,
  where `agg` is the neighbourhood aggregation, which stays an opaque function of its operand here. Each equation below
  reads one product at an index: entry (r, c) is the sum over k of the rectified, biased input at (r, k) times the weight
  at (k, c), and a bias is read through its one-row form. A product with no bias after it is the specification's stage
  with a zero row added.
-/
import proofs.«180423_j42528766165363_1_alg».proof.Proof.Gen.ReferenceIdeal.Read
import proofs.«180423_j42528766165363_1_alg».proof.Proof.DenseSpec
import Idealize.ShloMosaic.Lib.ValueIdx
import Idealize.ShloMosaic.Lib.Pipeline.Value
import Idealize.ShloMosaic.PureOps.Ideal.Laws

noncomputable section

namespace Cert.ReferenceIdeal.Stages

open Cert.ReferenceIdeal Cert.ReferenceIdeal.Read Idealize.ShloMosaic Idealize.ShloMosaic.ValueIdx

variable (x0 : (⟨S100000x128, .f32⟩ : BufTy).Contents (Elt Ideal))
  (x1 : (⟨S2x800000, .i32⟩ : BufTy).Contents (Elt Ideal))
  (x2 : (⟨S800000, .f32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x256, .f32⟩ : BufTy).Contents (Elt Ideal))
  (x10 : (⟨S256, .f32⟩ : BufTy).Contents (Elt Ideal))
  (x11 : (⟨S256x40, .f32⟩ : BufTy).Contents (Elt Ideal))
  (x12 : (⟨S40, .f32⟩ : BufTy).Contents (Elt Ideal))

/-- The first product has no bias before or after it: entry (r, c) is ∑ k, x0 (r, k) * W0 (k, c), the specification's
    linear stage with a zero row added. -/
theorem v32_eq (z : FVec Ideal ⟨2, ![1, 128]⟩ .f32) (hz : ∀ c : Fin 128, z (ix2 (0 : Fin 1) c) = 0) :
    val_main_v32 (F := Ideal) x0 x3 = Cert.DenseSpec.lin 100000 128 128 x0 x3 z := by
  funext i
  obtain ⟨r, c, rfl⟩ : ∃ (r : Fin 100000) (c : Fin 128), i = ix2 r c := ⟨i 0, i 1, eq_ix2 i⟩
  rw [val_main_v32_apply, Cert.DenseSpec.lin_apply, hz c, add_zero]
  refine Finset.sum_congr rfl fun k _ => ?_
  have el : lidx_main_v32 (ix2 r c) k = ix2 r k :=
    funext fun a => Fin.ext (by match a with | ⟨0, _⟩ => rfl | ⟨1, _⟩ => rfl)
  have er : ridx_main_v32 (ix2 r c) k = ix2 k c :=
    funext fun a => Fin.ext (by match a with | ⟨0, _⟩ => rfl | ⟨1, _⟩ => rfl)
  rw [el, er]

/-- The second product: its left operand at (r, k) is max (agg v32 (r, k) + b0 k) 0, the bias read through the one-row
    array `b`. -/
theorem v50_eq (A : FVec Ideal ⟨2, ![100000, 128]⟩ .f32) (hA : val_main_v45 (F := Ideal) x0 x1 x2 x3 = A)
    (b : FVec Ideal ⟨2, ![1, 128]⟩ .f32) (hb : ∀ k : Fin 128, b (ix2 (0 : Fin 1) k) = x4 (ix1 k))
    (z : FVec Ideal ⟨2, ![1, 128]⟩ .f32) (hz : ∀ c : Fin 128, z (ix2 (0 : Fin 1) c) = 0) :
    val_main_v50 (F := Ideal) x0 x1 x2 x3 x4 x5 = Cert.DenseSpec.reluLin 100000 128 128 A x5 b z := by
  funext i
  obtain ⟨r, c, rfl⟩ : ∃ (r : Fin 100000) (c : Fin 128), i = ix2 r c := ⟨i 0, i 1, eq_ix2 i⟩
  rw [val_main_v50_apply, Cert.DenseSpec.reluLin_apply, hz c, add_zero]
  refine Finset.sum_congr rfl fun k _ => ?_
  have el : lidx_main_v50 (ix2 r c) k = ix2 r k :=
    funext fun a => Fin.ext (by match a with | ⟨0, _⟩ => rfl | ⟨1, _⟩ => rfl)
  have er : ridx_main_v50 (ix2 r c) k = ix2 k c :=
    funext fun a => Fin.ext (by match a with | ⟨0, _⟩ => rfl | ⟨1, _⟩ => rfl)
  have eb : idx_main_v46 (idx_main_v47 (ix2 r k)) = ix1 k :=
    funext fun a => Fin.ext (by match a with | ⟨0, _⟩ => rfl)
  rw [el, er, val_main_v49_apply, val_main_v48_apply, val_main_v47_apply, val_main_v46_apply,
    val_main_call1_v0_apply, val_main_call1_cst_apply, hA, eb, hb k, Ideal.addf_def, Ideal.maximumf_def,
    Ideal.ofBits_def, Ideal.ofBits_zero_f32]

/-- The third product: its left operand at (r, k) is max (agg v50 (r, k) + b1 k) 0. -/
theorem v68_eq (A : FVec Ideal ⟨2, ![100000, 128]⟩ .f32) (hA : val_main_v63 (F := Ideal) x0 x1 x2 x3 x4 x5 = A)
    (b : FVec Ideal ⟨2, ![1, 128]⟩ .f32) (hb : ∀ k : Fin 128, b (ix2 (0 : Fin 1) k) = x6 (ix1 k))
    (z : FVec Ideal ⟨2, ![1, 128]⟩ .f32) (hz : ∀ c : Fin 128, z (ix2 (0 : Fin 1) c) = 0) :
    val_main_v68 (F := Ideal) x0 x1 x2 x3 x4 x5 x6 x7 = Cert.DenseSpec.reluLin 100000 128 128 A x7 b z := by
  funext i
  obtain ⟨r, c, rfl⟩ : ∃ (r : Fin 100000) (c : Fin 128), i = ix2 r c := ⟨i 0, i 1, eq_ix2 i⟩
  rw [val_main_v68_apply, Cert.DenseSpec.reluLin_apply, hz c, add_zero]
  refine Finset.sum_congr rfl fun k _ => ?_
  have el : lidx_main_v68 (ix2 r c) k = ix2 r k :=
    funext fun a => Fin.ext (by match a with | ⟨0, _⟩ => rfl | ⟨1, _⟩ => rfl)
  have er : ridx_main_v68 (ix2 r c) k = ix2 k c :=
    funext fun a => Fin.ext (by match a with | ⟨0, _⟩ => rfl | ⟨1, _⟩ => rfl)
  have eb : idx_main_v64 (idx_main_v65 (ix2 r k)) = ix1 k :=
    funext fun a => Fin.ext (by match a with | ⟨0, _⟩ => rfl)
  rw [el, er, val_main_v67_apply, val_main_v66_apply, val_main_v65_apply, val_main_v64_apply,
    val_main_call2_v0_apply, val_main_call2_cst_apply, hA, eb, hb k, Ideal.addf_def, Ideal.maximumf_def,
    Ideal.ofBits_def, Ideal.ofBits_zero_f32]

/-- The fourth product, into 256 columns: its left operand at (r, k) is max (agg v68 (r, k) + b2 k) 0. -/
theorem v86_eq (A : FVec Ideal ⟨2, ![100000, 128]⟩ .f32) (hA : val_main_v81 (F := Ideal) x0 x1 x2 x3 x4 x5 x6 x7 = A)
    (b : FVec Ideal ⟨2, ![1, 128]⟩ .f32) (hb : ∀ k : Fin 128, b (ix2 (0 : Fin 1) k) = x8 (ix1 k))
    (z : FVec Ideal ⟨2, ![1, 256]⟩ .f32) (hz : ∀ c : Fin 256, z (ix2 (0 : Fin 1) c) = 0) :
    val_main_v86 (F := Ideal) x0 x1 x2 x3 x4 x5 x6 x7 x8 x9 = Cert.DenseSpec.reluLin 100000 128 256 A x9 b z := by
  funext i
  obtain ⟨r, c, rfl⟩ : ∃ (r : Fin 100000) (c : Fin 256), i = ix2 r c := ⟨i 0, i 1, eq_ix2 i⟩
  rw [val_main_v86_apply, Cert.DenseSpec.reluLin_apply, hz c, add_zero]
  refine Finset.sum_congr rfl fun k _ => ?_
  have el : lidx_main_v86 (ix2 r c) k = ix2 r k :=
    funext fun a => Fin.ext (by match a with | ⟨0, _⟩ => rfl | ⟨1, _⟩ => rfl)
  have er : ridx_main_v86 (ix2 r c) k = ix2 k c :=
    funext fun a => Fin.ext (by match a with | ⟨0, _⟩ => rfl | ⟨1, _⟩ => rfl)
  have eb : idx_main_v82 (idx_main_v83 (ix2 r k)) = ix1 k :=
    funext fun a => Fin.ext (by match a with | ⟨0, _⟩ => rfl)
  rw [el, er, val_main_v85_apply, val_main_v84_apply, val_main_v83_apply, val_main_v82_apply,
    val_main_call3_v0_apply, val_main_call3_cst_apply, hA, eb, hb k, Ideal.addf_def, Ideal.maximumf_def,
    Ideal.ofBits_def, Ideal.ofBits_zero_f32]

/-- The last stage: entry (r, c) is (∑ k, max (v86 (r, k) + bm0 k) 0 * Wm1 (k, c)) + bm1 c. Both biases are real here; each
    is read through its one-row form. -/
theorem v94_eq (H : FVec Ideal ⟨2, ![100000, 256]⟩ .f32) (hH : val_main_v86 (F := Ideal) x0 x1 x2 x3 x4 x5 x6 x7 x8 x9 = H)
    (b : FVec Ideal ⟨2, ![1, 256]⟩ .f32) (hb : ∀ k : Fin 256, b (ix2 (0 : Fin 1) k) = x10 (ix1 k))
    (b' : FVec Ideal ⟨2, ![1, 40]⟩ .f32) (hb' : ∀ c : Fin 40, b' (ix2 (0 : Fin 1) c) = x12 (ix1 c)) :
    val_main_v94 (F := Ideal) x0 x1 x2 x3 x4 x5 x6 x7 x8 x9 x10 x11 x12 = Cert.DenseSpec.reluLin 100000 256 40 H x11 b b' := by
  funext i
  obtain ⟨r, c, rfl⟩ : ∃ (r : Fin 100000) (c : Fin 40), i = ix2 r c := ⟨i 0, i 1, eq_ix2 i⟩
  have eb' : idx_main_v92 (idx_main_v93 (ix2 r c)) = ix1 c :=
    funext fun a => Fin.ext (by match a with | ⟨0, _⟩ => rfl)
  rw [val_main_v94_apply, val_main_v91_apply, Cert.DenseSpec.reluLin_apply, Ideal.addf_def,
    val_main_v93_apply, val_main_v92_apply, eb', hb' c]
  refine congrArg (· + x12 (ix1 c)) (Finset.sum_congr rfl fun k _ => ?_)
  have el : lidx_main_v91 (ix2 r c) k = ix2 r k :=
    funext fun a => Fin.ext (by match a with | ⟨0, _⟩ => rfl | ⟨1, _⟩ => rfl)
  have er : ridx_main_v91 (ix2 r c) k = ix2 k c :=
    funext fun a => Fin.ext (by match a with | ⟨0, _⟩ => rfl | ⟨1, _⟩ => rfl)
  have eb : idx_main_v87 (idx_main_v88 (ix2 r k)) = ix1 k :=
    funext fun a => Fin.ext (by match a with | ⟨0, _⟩ => rfl)
  rw [el, er, val_main_v90_apply, val_main_v89_apply, val_main_v88_apply, val_main_v87_apply,
    val_main_call4_v0_apply, val_main_call4_cst_apply, hH, eb, hb k, Ideal.addf_def, Ideal.maximumf_def,
    Ideal.ofBits_def, Ideal.ofBits_zero_f32]

end Cert.ReferenceIdeal.Stages

end
-- ==== Proof.Bridge.lean ====
/-
  The two programs compute one function.

  Of the same argument arrays, the reference's result and the kernel's result array are the same nest: five dense
  stages with three aggregation steps between the first four. The reference's stages are read off its operations
  one at a time; the kernel's are what its tiled stages write back. Stage by stage, from the inside out, the
  two agree: a product `x · W` is the dense stage with a zero post-bias row because `a + 0 = a` on the extended
  reals; a product of a rectified, biased array is the dense stage whose pre-bias row is the bias vector laid
  out as one row; the aggregation steps are one and the same function of equal arguments. No step needs the
  inputs to be finite.
-/
import proofs.«180423_j42528766165363_1_alg».proof.Proof.KernelStages
import proofs.«180423_j42528766165363_1_alg».proof.Proof.RefStages

set_option maxRecDepth 16384

noncomputable section

namespace Cert.Bridge

open Cert.KernelIdeal Cert.KernelIdeal.Gen Cert.KernelIdeal.Stages
open Idealize.ShloMosaic Idealize.ShloMosaic.TcCoe Idealize.ShloMosaic.ValueIdx
open Idealize.SL.Sem
open Cert.ReferenceIdeal.Read Cert.ReferenceIdeal.Aggregate

variable (m : (ℓ : Loc nD τ sig) → Buf (Elt Ideal) ℓ) (ρ : Dev nD → PrngReg) (c : Dev nD)

/-- The first product. -/
theorem prod0 : val_main_v32 (F := Ideal) (m ((c : Thread nD τ).loc main_arg0)) (m ((c : Thread nD τ).loc main_arg3)) = K0 m ρ c :=
  Cert.ReferenceIdeal.Stages.v32_eq (m ((c : Thread nD τ).loc main_arg0)) (m ((c : Thread nD τ).loc main_arg3)) (Z0 m ρ c) (Z0_apply m ρ c)

/-- The first aggregation. -/
theorem aggr0 : val_main_v45 (F := Ideal) (m ((c : Thread nD τ).loc main_arg0)) (m ((c : Thread nD τ).loc main_arg1)) (m ((c : Thread nD τ).loc main_arg2)) (m ((c : Thread nD τ).loc main_arg3)) = A0 m ρ c := by
  rw [v45_eq, prod0 m ρ c]
  rfl

/-- The second product. -/
theorem prod1 : val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = K1 m ρ c :=
  Cert.ReferenceIdeal.Stages.v50_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (A0 m ρ c) (aggr0 m ρ c) (B1 m ρ c) (B1_apply m ρ c) (Z1 m ρ c) (Z1_apply m ρ c)

/-- The second aggregation. -/
theorem aggr1 : val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = A1 m ρ c := by
  rw [v63_eq, prod1 m ρ c]
  rfl

/-- The third product. -/
theorem prod2 : val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = K2 m ρ c :=
  Cert.ReferenceIdeal.Stages.v68_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (A1 m ρ c) (aggr1 m ρ c) (B2 m ρ c) (B2_apply m ρ c) (Z2 m ρ c) (Z2_apply m ρ c)

/-- The third aggregation. -/
theorem aggr2 : val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = A2 m ρ c := by
  rw [v81_eq, prod2 m ρ c]
  rfl

/-- The hidden layer before its bias and rectification. -/
theorem prod3 : val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = K3 m ρ c :=
  Cert.ReferenceIdeal.Stages.v86_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (A2 m ρ c) (aggr2 m ρ c) (B3 m ρ c) (B3_apply m ρ c) (Z3 m ρ c) (Z3_apply m ρ c)

/-- THE RESULTS AGREE: the reference's result of the kernel's argument arrays is the kernel's result array. -/
theorem result_eq : val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) = K4 m ρ c :=
  Cert.ReferenceIdeal.Stages.v94_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (K3 m ρ c) (prod3 m ρ c) (B4 m ρ c) (B4_apply m ρ c) (B4' m ρ c) (B4'_apply m ρ c)

end Cert.Bridge

end
-- ==== Proof.lean ====
/- The proof of `Cert.Claim`: a three-layer graph convolution with a two-layer head, its dense stages tiled over row
   blocks by the kernel, against the plain reference.

   Both programs normalise the edge list the same way and aggregate neighbours by the same gather and scatter-add;
   they differ in how a dense stage `max (x + b) 0 · W + b'` is computed: the kernel tiles it over twenty blocks of
   5000 rows, rounds the operands to bf16 on the way into the matrix unit and adds a zero row where the reference
   adds nothing. Over the extended reals a change of float format is the identity, a block of a product is the
   product of the block, a sum over the contraction index does not depend on its order, and `a + 0 = a`; so index by
   index the two results are one function of the arguments, and finiteness of the inputs is never used.
   The frames of the two kernel programs are the tiled stages' launch-and-flush argument; the reference's frame is
   its run with the result dropped; the idealisation rewrote no operation, so it preserves the kernel trivially. -/
import proofs.«180423_j42528766165363_1_alg».proof.Defs
import proofs.«180423_j42528766165363_1_alg».proof.Proof.Gen.Kernel
import proofs.«180423_j42528766165363_1_alg».proof.Proof.Gen.Kernel.Skeleton
import proofs.«180423_j42528766165363_1_alg».proof.Proof.Gen.Kernel.Launch
import proofs.«180423_j42528766165363_1_alg».proof.Proof.Gen.Kernel.Points
import proofs.«180423_j42528766165363_1_alg».proof.Proof.Gen.Kernel.Frame
import proofs.«180423_j42528766165363_1_alg».proof.Proof.Gen.KernelIdeal
import proofs.«180423_j42528766165363_1_alg».proof.Proof.Gen.KernelIdeal.Skeleton
import proofs.«180423_j42528766165363_1_alg».proof.Proof.Gen.KernelIdeal.Launch
import proofs.«180423_j42528766165363_1_alg».proof.Proof.Gen.KernelIdeal.Points
import proofs.«180423_j42528766165363_1_alg».proof.Proof.Gen.KernelIdeal.Frame
import proofs.«180423_j42528766165363_1_alg».proof.Proof.Gen.ReferenceIdeal
import proofs.«180423_j42528766165363_1_alg».proof.Proof.Gen.Pre_finite_inputs
import proofs.«180423_j42528766165363_1_alg».proof.Proof.Gen.ReferenceIdeal.Run
import proofs.«180423_j42528766165363_1_alg».proof.Proof.Gen.ReferenceIdeal.Read
import proofs.«180423_j42528766165363_1_alg».proof.Proof.KernelRun
import proofs.«180423_j42528766165363_1_alg».proof.Proof.Bridge
import Idealize.ShloMosaic.Adequacy
import Idealize.ShloMosaic.Init

noncomputable section

namespace Cert.Proof

open Idealize.ShloMosaic Idealize.SL.Sem Cert.Kernel

/-- The three frames: the two kernel programs by the tiled stages' launch-and-flush argument, the reference by its run
    with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation of the kernel. -/
theorem preserves : Cert.preserves_Kernel_KernelIdeal := trivial

/-- Over the extended reals the kernel's result array ends at the nest of dense stages and aggregation steps of its
    arguments, and the reference's result, of arguments that agree, is that same nest. -/
theorem algebraic : Cert.algebraic_KernelIdeal_ReferenceIdeal := by
  intro m ρ m' ρ' _ hagree
  refine ⟨fun c => Cert.KernelIdeal.Stages.K4 m ρ c, ?_, ?_⟩
  · exact (θ_run Cert.KernelIdeal.defs _ _).mono
      (fun r h c => ⟨(h c).1.trans (Cert.KernelIdeal.Stages.out4 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v94_eq, h0, h1, h2, h3, h4, h5, h6, h7, h8, h9, h10, h11, h12]
    exact Cert.Bridge.result_eq m ρ c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
